-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4x1024 .f32) (main_arg8 : FVec F S1024 .f32) (main_arg9 : FVec F S1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096 .f32) (main_arg5 : FVec F S4096x1024 .f32) (main_arg6 : FVec F S4x1024 .f32) (main_arg7 : FVec F S4x1024 .f32) (main_arg8 : FVec F S1024 .f32) (main_arg9 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096 .f32) (main_arg5 : FVec F S4096x1024 .f32) (main_arg6 : FVec F S4x1024 .f32) (main_arg7 : FVec F S4x1024 .f32) (main_arg8 : FVec F S1024 .f32) (main_arg9 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S1024x4096 : Shape := ⟨2, ![1024, 4096]⟩
abbrev S256x1024 : Shape := ⟨2, ![256, 1024]⟩
abbrev S256x4096 : Shape := ⟨2, ![256, 4096]⟩
abbrev S4x256x1024 : Shape := ⟨3, ![4, 256, 1024]⟩
abbrev S1x4096 : Shape := ⟨2, ![1, 4096]⟩
abbrev S1x1024 : Shape := ⟨2, ![1, 1024]⟩
abbrev S256 : Shape := ⟨1, ![256]⟩
abbrev S256x1 : Shape := ⟨2, ![256, 1]⟩
abbrev S1x256x1024 : Shape := ⟨3, ![1, 256, 1024]⟩

abbrev nBuf : Space → Nat
  | .hbm => 16
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4x1024, .f32⟩
  | .hbm, ⟨7, _⟩ => ⟨S4x1024, .f32⟩
  | .hbm, ⟨8, _⟩ => ⟨S1024, .f32⟩
  | .hbm, ⟨9, _⟩ => ⟨S1024, .f32⟩
  | .hbm, ⟨10, _⟩ => ⟨S4096x1024, .bf16⟩
  | .hbm, ⟨11, _⟩ => ⟨S1024x4096, .bf16⟩
  | .hbm, ⟨12, _⟩ => ⟨S4096x1024, .bf16⟩
  | .hbm, ⟨13, _⟩ => ⟨S1024x4096, .bf16⟩
  | .hbm, ⟨14, _⟩ => ⟨S8192x1024, .f32⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S4x1024, .f32⟩
  | .local _ .vmem, ⟨10, _⟩ => ⟨S4x1024, .f32⟩
  | .local _ .vmem, ⟨11, _⟩ => ⟨S1024, .f32⟩
  | .local _ .vmem, ⟨12, _⟩ => ⟨S1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x4096, .f32⟩
  | .local _ .vmem, ⟨18, _⟩ => ⟨S4x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S4096x1024_S1024x4096_1_0 : S4096x1024.Transposes [1, 0] S1024x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x4096_S256x1024_0_0 : ∀ a, (![0, 0] : Fin 2 → Nat) a + S256x1024.size a ≤ S256x4096.size a
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  reduces_S256x1024_S256 : S256x1024.Reduces [1] S256
  shapeCasts_S256_S256x1 : S256.ShapeCasts S256x1
  broadcasts_S256x1_S256x1024 : S256x1.Broadcasts S256x1024
  shapeCasts_S1024_S1x1024 : S1024.ShapeCasts S1x1024
  broadcasts_S1x1024_S256x1024 : S1x1024.Broadcasts S256x1024
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S256x4096_S256x1024_0_1024 : ∀ a, (![0, 1024] : Fin 2 → Nat) a + S256x1024.size a ≤ S256x4096.size a
  inb_S4x1024_S1x1024_1_0 : ∀ a, (![1, 0] : Fin 2 → Nat) a + S1x1024.size a ≤ S4x1024.size a
  inb_S4x256x1024_S1x256x1024_1_0_0 : ∀ a, (![1, 0, 0] : Fin 3 → Nat) a + S1x256x1024.size a ≤ S4x256x1024.size a
  inb_S256x4096_S256x1024_0_2048 : ∀ a, (![0, 2048] : Fin 2 → Nat) a + S256x1024.size a ≤ S256x4096.size a
  inb_S4x1024_S1x1024_2_0 : ∀ a, (![2, 0] : Fin 2 → Nat) a + S1x1024.size a ≤ S4x1024.size a
  inb_S4x256x1024_S1x256x1024_2_0_0 : ∀ a, (![2, 0, 0] : Fin 3 → Nat) a + S1x256x1024.size a ≤ S4x256x1024.size a
  inb_S256x4096_S256x1024_0_3072 : ∀ a, (![0, 3072] : Fin 2 → Nat) a + S256x1024.size a ≤ S256x4096.size a
  inb_S4x1024_S1x1024_3_0 : ∀ a, (![3, 0] : Fin 2 → Nat) a + S1x1024.size a ≤ S4x1024.size a
  inb_S4x256x1024_S1x256x1024_3_0_0 : ∀ a, (![3, 0, 0] : Fin 3 → Nat) a + S1x256x1024.size a ≤ S4x256x1024.size a
  inb_S1024_S1024_0 : ∀ a, (![0] : Fin 1 → Nat) a + S1024.size a ≤ S1024.size a
  h_S1024 : 0 < S1024.numel
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .f32 = 32 ∨ (Rect.block (s := S8192x1024) S256x1024.size (cc0_transform_11 i) (hinb0_11 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S8192x4096 : Shape := ⟨2, ![8192, 4096]⟩
abbrev S1x4096 : Shape := ⟨2, ![1, 4096]⟩
abbrev S8192x4x1024 : Shape := ⟨3, ![8192, 4, 1024]⟩
abbrev S_ : Shape := ⟨0, ![]⟩
abbrev S8192x4 : Shape := ⟨2, ![8192, 4]⟩
abbrev S8192x4x1 : Shape := ⟨3, ![8192, 4, 1]⟩
abbrev S1x4x1024 : Shape := ⟨3, ![1, 4, 1024]⟩
abbrev S8192x1x1024 : Shape := ⟨3, ![8192, 1, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S4096x1024, .f32⟩
  | 4 => ⟨S4096, .f32⟩
  | 5 => ⟨S4096x1024, .f32⟩
  | 6 => ⟨S4x1024, .f32⟩
  | 7 => ⟨S4x1024, .f32⟩
  | 8 => ⟨S1024, .f32⟩
  | 9 => ⟨S1024, .f32⟩
  | 10 => ⟨S8192x4096, .f32⟩
  | 11 => ⟨S1x4096, .f32⟩
  | 12 => ⟨S8192x4096, .f32⟩
  | 13 => ⟨S8192x4096, .f32⟩
  | 14 => ⟨S8192x4096, .f32⟩
  | 15 => ⟨S8192x4096, .f32⟩
  | 16 => ⟨S8192x4x1024, .f32⟩
  | 17 => ⟨S_, .f32⟩
  | 18 => ⟨S8192x4, .f32⟩
  | 19 => ⟨S8192x4x1, .f32⟩
  | 20 => ⟨S_, .f32⟩
  | 21 => ⟨S8192x4x1, .f32⟩
  | 22 => ⟨S8192x4x1, .f32⟩
  | 23 => ⟨S_, .i32⟩
  | 24 => ⟨S_, .f32⟩
  | 25 => ⟨S8192x4, .f32⟩
  | 26 => ⟨S8192x4x1, .f32⟩
  | 27 => ⟨S_, .f32⟩
  | 28 => ⟨S8192x4x1, .f32⟩
  | 29 => ⟨S8192x4x1, .f32⟩
  | 30 => ⟨S8192x4x1024, .f32⟩
  | 31 => ⟨S8192x4x1024, .f32⟩
  | 32 => ⟨S8192x4x1024, .f32⟩
  | 33 => ⟨S_, .f32⟩
  | 34 => ⟨S_, .f32⟩
  | 35 => ⟨S_, .f32⟩
  | 36 => ⟨S_, .f32⟩
  | 37 => ⟨S8192x4, .f32⟩
  | 38 => ⟨S8192x4x1, .f32⟩
  | 39 => ⟨S8192x4x1, .f32⟩
  | 40 => ⟨S8192x4x1, .f32⟩
  | 41 => ⟨S_, .f32⟩
  | 42 => ⟨S_, .i1⟩
  | 43 => ⟨S_, .f32⟩
  | 44 => ⟨S_, .f32⟩
  | 45 => ⟨S8192x4x1, .f32⟩
  | 46 => ⟨S8192x4x1, .f32⟩
  | 47 => ⟨S8192x4x1, .f32⟩
  | 48 => ⟨S8192x4x1024, .f32⟩
  | 49 => ⟨S8192x4x1024, .f32⟩
  | 50 => ⟨S1x4x1024, .f32⟩
  | 51 => ⟨S8192x4x1024, .f32⟩
  | 52 => ⟨S8192x4x1024, .f32⟩
  | 53 => ⟨S_, .f32⟩
  | 54 => ⟨S8192x4x1, .f32⟩
  | 55 => ⟨S8192x4x1, .f32⟩
  | 56 => ⟨S8192x4x1024, .f32⟩
  | 57 => ⟨S8192x4x1024, .f32⟩
  | 58 => ⟨S1x4x1024, .f32⟩
  | 59 => ⟨S8192x4x1024, .f32⟩
  | 60 => ⟨S8192x4x1024, .f32⟩
  | 61 => ⟨S8192x1x1024, .f32⟩
  | 62 => ⟨S8192x1024, .f32⟩
  | 63 => ⟨S8192x1x1024, .f32⟩
  | 64 => ⟨S8192x1024, .f32⟩
  | 65 => ⟨S8192x1x1024, .f32⟩
  | 66 => ⟨S8192x1024, .f32⟩
  | 67 => ⟨S8192x1x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S_, .i32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x1024, .f32⟩
  | 106 => ⟨S8192x1024, .f32⟩
  | 107 => ⟨S8192x1024, .f32⟩
  | 108 => ⟨S_, .f32⟩
  | 109 => ⟨S_, .f32⟩
  | 110 => ⟨S_, .f32⟩
  | 111 => ⟨S_, .f32⟩
  | 112 => ⟨S8192, .f32⟩
  | 113 => ⟨S8192x1, .f32⟩
  | 114 => ⟨S8192x1, .f32⟩
  | 115 => ⟨S8192x1, .f32⟩
  | 116 => ⟨S_, .f32⟩
  | 117 => ⟨S_, .i1⟩
  | 118 => ⟨S_, .f32⟩
  | 119 => ⟨S_, .f32⟩
  | 120 => ⟨S8192x1, .f32⟩
  | 121 => ⟨S8192x1, .f32⟩
  | 122 => ⟨S8192x1, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S8192x1024, .f32⟩
  | 4 => ⟨S8192x1024, .f32⟩
  | 5 => ⟨S1x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_cst_0 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_cst_1 : Ref sig .tc := ⟨.hbm, 34, rfl⟩
abbrev main_call0_call0_v8 : Ref sig .tc := ⟨.hbm, 35, rfl⟩
abbrev main_call0_call0_cst_2 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_cst_3 : Ref sig .tc := ⟨.hbm, 41, rfl⟩
abbrev main_call0_call0_v13 : Ref sig .tc := ⟨.hbm, 42, rfl⟩
abbrev main_call0_call0_cst_4 : Ref sig .tc := ⟨.hbm, 43, rfl⟩
abbrev main_call0_call0_call0_v0 : Ref sig .tc := ⟨.hbm, 44, rfl⟩
abbrev main_call0_call0_call0_v1 : Ref sig .tc := ⟨.hbm, 45, rfl⟩
abbrev main_call0_v0 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_1 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_2 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_3 : Ref sig .tc := ⟨.hbm, 74, rfl⟩
abbrev main_v36 : Ref sig .tc := ⟨.hbm, 75, rfl⟩
abbrev main_v37 : Ref sig .tc := ⟨.hbm, 76, rfl⟩
abbrev main_cst_4 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_5 : Ref sig .tc := ⟨.hbm, 83, rfl⟩
abbrev main_v43 : Ref sig .tc := ⟨.hbm, 84, rfl⟩
abbrev main_v44 : Ref sig .tc := ⟨.hbm, 85, rfl⟩
abbrev main_cst_6 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_7 : Ref sig .tc := ⟨.hbm, 92, rfl⟩
abbrev main_v50 : Ref sig .tc := ⟨.hbm, 93, rfl⟩
abbrev main_v51 : Ref sig .tc := ⟨.hbm, 94, rfl⟩
abbrev main_cst_8 : Ref sig .tc := ⟨.hbm, 95, rfl⟩
abbrev main_v52 : Ref sig .tc := ⟨.hbm, 96, rfl⟩
abbrev main_v53 : Ref sig .tc := ⟨.hbm, 97, rfl⟩
abbrev main_c_9 : Ref sig .tc := ⟨.hbm, 98, rfl⟩
abbrev main_call1_call0_cst : Ref sig .tc := ⟨.hbm, 99, rfl⟩
abbrev main_call1_call0_v0 : Ref sig .tc := ⟨.hbm, 100, rfl⟩
abbrev main_call1_call0_v1 : Ref sig .tc := ⟨.hbm, 101, rfl⟩
abbrev main_call1_call0_cst_0 : Ref sig .tc := ⟨.hbm, 102, rfl⟩
abbrev main_call1_call0_v2 : Ref sig .tc := ⟨.hbm, 103, rfl⟩
abbrev main_call1_call0_v3 : Ref sig .tc := ⟨.hbm, 104, rfl⟩
abbrev main_call1_call0_v4 : Ref sig .tc := ⟨.hbm, 105, rfl⟩
abbrev main_call1_call0_v5 : Ref sig .tc := ⟨.hbm, 106, rfl⟩
abbrev main_call1_call0_v6 : Ref sig .tc := ⟨.hbm, 107, rfl⟩
abbrev main_call1_call0_v7 : Ref sig .tc := ⟨.hbm, 108, rfl⟩
abbrev main_call1_call0_cst_1 : Ref sig .tc := ⟨.hbm, 109, rfl⟩
abbrev main_call1_call0_v8 : Ref sig .tc := ⟨.hbm, 110, rfl⟩
abbrev main_call1_call0_cst_2 : Ref sig .tc := ⟨.hbm, 111, rfl⟩
abbrev main_call1_call0_v9 : Ref sig .tc := ⟨.hbm, 112, rfl⟩
abbrev main_call1_call0_v10 : Ref sig .tc := ⟨.hbm, 113, rfl⟩
abbrev main_call1_call0_v11 : Ref sig .tc := ⟨.hbm, 114, rfl⟩
abbrev main_call1_call0_v12 : Ref sig .tc := ⟨.hbm, 115, rfl⟩
abbrev main_call1_call0_cst_3 : Ref sig .tc := ⟨.hbm, 116, rfl⟩
abbrev main_call1_call0_v13 : Ref sig .tc := ⟨.hbm, 117, rfl⟩
abbrev main_call1_call0_cst_4 : Ref sig .tc := ⟨.hbm, 118, rfl⟩
abbrev main_call1_call0_call0_v0 : Ref sig .tc := ⟨.hbm, 119, rfl⟩
abbrev main_call1_call0_call0_v1 : Ref sig .tc := ⟨.hbm, 120, rfl⟩
abbrev main_call1_v0 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_cst_10 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_cst_11 : Ref sig .tc := ⟨.hbm, 139, rfl⟩
abbrev main_v70 : Ref sig .tc := ⟨.hbm, 140, rfl⟩
abbrev main_v71 : Ref sig .tc := ⟨.hbm, 141, rfl⟩
abbrev main_cst_12 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x4x1024 : S8192x4096.ShapeCasts S8192x4x1024
  reducesTo_S8192x4x1024_S8192x4_d2 : S8192x4x1024.ReducesTo [2] S8192x4
  h_S_ : 0 < S_.numel
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S8192x4x1_S8192x4x1024_0_1_2 : S8192x4x1.BroadcastsInDim S8192x4x1024 (![0, 1, 2] : Fin 3 → Fin S8192x4x1024.rank)
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  bcast_S_S8192x1024 : S_.BroadcastsInDim S8192x1024 (![] : Fin 0 → Fin S8192x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.BodyBlocks.lean ====
/-
  What the body leaves in its two output blocks, as functions of its ten input blocks.

  The body stores the whole pre-activation block (256 × 4096) into a scratch buffer, reads it back in four column
  slabs of 1024, normalises each slab with one row of the gates' scale and shift, and stores the four normalised gates
  into the four slots of a second scratch buffer; it then reads the slots back, forms the cell state, normalises it,
  and stores the new cell state and the new hidden state. A read of a slab after the one whole store is the stored
  block at the slab's indices; a read of slot k after the four slot stores is what was stored in slot k, the slots
  being disjoint. So the two output blocks are the named compositions below of the body's arithmetic.
-/
import proofs.«163425_j78262894067860_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem Idealize.ShloMosaic.Tactic
open Idealize.ShloMosaic.Pipeline (Dat)
namespace Cert.KernelIdeal.Block
open Cert.KernelIdeal Cert.KernelIdeal.Gen
variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

section Scratch
variable {sig : RefSig} {κ : Kind} {sp : Space} {Val : EltTy → Type} [∀ e, Nonempty (Val e)]

/-- A load of a box after ONE store of the whole pre-activation block reads the stored block at the box's indices. -/
theorem readCov_whole (v : View sig κ sp S256x4096 .f32) (inb) (P : S256x4096.Idx → Val .f32) (B : LoadRect S256x4096) :
    v.readCov [(⟨Rect.unit (s := S256x4096) ![0, 0] S256x4096.size inb, P⟩ : View.Piece Val S256x4096 .f32)] B = fun j => P (B.idx j) := by
  rw [View.readCov_eq_canon', View.canon_unit_zero hz2]

variable (v : View sig κ sp S4x256x1024 .f32)
  (w3 w2 w1 w0 : S1x256x1024.Idx → Val .f32)

/-- Two slots of the gate buffer, at different first coordinates, share no index. -/
theorem slot_disjoint (a b : Nat) (h : b + 1 ≤ a) (ia ib) :
    Disjoint (Rect.unit (s := S4x256x1024) ![a, 0, 0] S1x256x1024.size ia).set
      (Rect.unit (s := S4x256x1024) ![b, 0, 0] S1x256x1024.size ib).toLoadRect.set :=
  Rect.unit_disjoint (s := S4x256x1024) (off := ![a, 0, 0]) (size := S1x256x1024.size) (off' := ![b, 0, 0])
    (size' := S1x256x1024.size) (inb := ia) (inb' := ib) (0 : Fin 3) (Or.inr h)

theorem slot3 (i3 i2 i1 i0) : v.readCov [(⟨Rect.unit (s := S4x256x1024) ![3, 0, 0] S1x256x1024.size i3, w3⟩ : View.Piece Val S4x256x1024 .f32),
      ⟨Rect.unit (s := S4x256x1024) ![2, 0, 0] S1x256x1024.size i2, w2⟩, ⟨Rect.unit (s := S4x256x1024) ![1, 0, 0] S1x256x1024.size i1, w1⟩,
      ⟨Rect.unit (s := S4x256x1024) ![0, 0, 0] S1x256x1024.size i0, w0⟩]
    (Rect.unit (s := S4x256x1024) ![3, 0, 0] S1x256x1024.size i3).toLoadRect = w3 :=
  View.readCov_cons_toLoadRect ..

theorem slot2 (i3 i2 i1 i0) : v.readCov [(⟨Rect.unit (s := S4x256x1024) ![3, 0, 0] S1x256x1024.size i3, w3⟩ : View.Piece Val S4x256x1024 .f32),
      ⟨Rect.unit (s := S4x256x1024) ![2, 0, 0] S1x256x1024.size i2, w2⟩, ⟨Rect.unit (s := S4x256x1024) ![1, 0, 0] S1x256x1024.size i1, w1⟩,
      ⟨Rect.unit (s := S4x256x1024) ![0, 0, 0] S1x256x1024.size i0, w0⟩]
    (Rect.unit (s := S4x256x1024) ![2, 0, 0] S1x256x1024.size i2).toLoadRect = w2 := by
  refine (View.readCov_cons_of_disjoint _ _ _ _ ?_).trans (View.readCov_cons_toLoadRect ..)
  exact slot_disjoint 3 2 (by decide) i3 i2

theorem slot1 (i3 i2 i1 i0) : v.readCov [(⟨Rect.unit (s := S4x256x1024) ![3, 0, 0] S1x256x1024.size i3, w3⟩ : View.Piece Val S4x256x1024 .f32),
      ⟨Rect.unit (s := S4x256x1024) ![2, 0, 0] S1x256x1024.size i2, w2⟩, ⟨Rect.unit (s := S4x256x1024) ![1, 0, 0] S1x256x1024.size i1, w1⟩,
      ⟨Rect.unit (s := S4x256x1024) ![0, 0, 0] S1x256x1024.size i0, w0⟩]
    (Rect.unit (s := S4x256x1024) ![1, 0, 0] S1x256x1024.size i1).toLoadRect = w1 := by
  refine (View.readCov_cons_of_disjoint _ _ _ _ ?_).trans
    ((View.readCov_cons_of_disjoint _ _ _ _ ?_).trans (View.readCov_cons_toLoadRect ..))
  · exact slot_disjoint 3 1 (by decide) i3 i1
  · exact slot_disjoint 2 1 (by decide) i2 i1

theorem slot0 (i3 i2 i1 i0) : v.readCov [(⟨Rect.unit (s := S4x256x1024) ![3, 0, 0] S1x256x1024.size i3, w3⟩ : View.Piece Val S4x256x1024 .f32),
      ⟨Rect.unit (s := S4x256x1024) ![2, 0, 0] S1x256x1024.size i2, w2⟩, ⟨Rect.unit (s := S4x256x1024) ![1, 0, 0] S1x256x1024.size i1, w1⟩,
      ⟨Rect.unit (s := S4x256x1024) ![0, 0, 0] S1x256x1024.size i0, w0⟩]
    (Rect.unit (s := S4x256x1024) ![0, 0, 0] S1x256x1024.size i0).toLoadRect = w0 := by
  refine (View.readCov_cons_of_disjoint _ _ _ _ ?_).trans
    ((View.readCov_cons_of_disjoint _ _ _ _ ?_).trans
      ((View.readCov_cons_of_disjoint _ _ _ _ ?_).trans (View.readCov_cons_toLoadRect ..)))
  · exact slot_disjoint 3 0 (by decide) i3 i0
  · exact slot_disjoint 2 0 (by decide) i2 i0
  · exact slot_disjoint 1 0 (by decide) i1 i0
end Scratch

/-- Column slab `k` … `k + 1023` of the pre-activation block. -/
def slab (k : Nat) (inb : ∀ a, ![0, k] a + S256x1024.size a ≤ S256x4096.size a) (P : FVec F S256x4096 .f32) : Vec F S256x1024 .f32 :=
  fun j => P ((Rect.unit (s := S256x4096) ![0, k] S256x1024.size inb).idx j)

/-- Row `k` of a 4 × 1024 array, as a 1 × 1024 array. -/
def rowOf (k : Nat) (inb : ∀ a, ![k, 0] a + S1x1024.size a ≤ S4x1024.size a) (x : Vec F S4x1024 .f32) : Vec F S1x1024 .f32 :=
  View.ld x (Rect.unit (s := S4x1024) ![k, 0] S1x1024.size inb)

/-- The four normalised gates, as stored in the slots. -/
def gate0 (P : FVec F S256x4096 .f32) (x6 x7 : Vec F S4x1024 .f32) : FVec F S1x256x1024 .f32 :=
  k0_pay8 (k0_pay4 (rowOf 0 inb_S4x1024_S1x1024_0_0 x6)) (k0_pay5 (rowOf 0 inb_S4x1024_S1x1024_0_0 x7))
    (k0_pay6 (slab 0 inb_S256x4096_S256x1024_0_0 P)) (k0_pay7 (slab 0 inb_S256x4096_S256x1024_0_0 P))
def gate1 (P : FVec F S256x4096 .f32) (x6 x7 : Vec F S4x1024 .f32) : FVec F S1x256x1024 .f32 :=
  k0_pay10 (k0_pay9 (slab 1024 inb_S256x4096_S256x1024_0_1024 P) (rowOf 1 inb_S4x1024_S1x1024_1_0 x6) (rowOf 1 inb_S4x1024_S1x1024_1_0 x7))
def gate2 (P : FVec F S256x4096 .f32) (x6 x7 : Vec F S4x1024 .f32) : FVec F S1x256x1024 .f32 :=
  k0_pay11 (slab 2048 inb_S256x4096_S256x1024_0_2048 P) (rowOf 2 inb_S4x1024_S1x1024_2_0 x6) (rowOf 2 inb_S4x1024_S1x1024_2_0 x7)
def gate3 (P : FVec F S256x4096 .f32) (x6 x7 : Vec F S4x1024 .f32) : FVec F S1x256x1024 .f32 :=
  k0_pay14 (slab 3072 inb_S256x4096_S256x1024_0_3072 P) (k0_pay12 (rowOf 3 inb_S4x1024_S1x1024_3_0 x6)) (k0_pay13 (rowOf 3 inb_S4x1024_S1x1024_3_0 x7))

/-- The new cell state's block. -/
def cellBlock (x0 x1 x2 : Vec F S256x1024 .f32) (x3 x4 : Vec F S1024x4096 .bf16) (x5 : Vec F S4096 .f32) (x6 x7 : Vec F S4x1024 .f32)
    (x8 x9 : Vec F S1024 .f32) : FVec F S256x1024 .f32 :=
  k0_pay1 (k0_pay15 (gate0 (k0_pay3 x0 x1 x3 x4 x5) x6 x7)) (k0_pay16 (gate2 (k0_pay3 x0 x1 x3 x4 x5) x6 x7)) x2
    (k0_pay18 (gate1 (k0_pay3 x0 x1 x3 x4 x5) x6 x7)) x8 x9

/-- The new hidden state's block. -/
def hidBlock (x0 x1 x2 : Vec F S256x1024 .f32) (x3 x4 : Vec F S1024x4096 .bf16) (x5 : Vec F S4096 .f32) (x6 x7 : Vec F S4x1024 .f32)
    (x8 x9 : Vec F S1024 .f32) : FVec F S256x1024 .f32 :=
  k0_pay2 (k0_pay15 (gate0 (k0_pay3 x0 x1 x3 x4 x5) x6 x7)) (k0_pay16 (gate2 (k0_pay3 x0 x1 x3 x4 x5) x6 x7))
    (k0_pay17 (gate3 (k0_pay3 x0 x1 x3 x4 x5) x6 x7)) x2 (k0_pay18 (gate1 (k0_pay3 x0 x1 x3 x4 x5) x6 x7)) x8 x9

/-- What the run leaves in the new cell state's staging buffer is `cellBlock` of the input blocks. -/
theorem out11_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x4096 .f32) (harg13 : arg13.IsWhole) (arg14 : Memref sig .tc .vmem S4x256x1024 .f32) (harg14 : arg14.IsWhole) (x0 : Vec F S256x1024 .f32) (x1 : Vec F S256x1024 .f32) (x2 : Vec F S256x1024 .f32) (x3 : Vec F S1024x4096 .bf16) (x4 : Vec F S1024x4096 .bf16) (x5 : Vec F S4096 .f32) (x6 : Vec F S4x1024 .f32) (x7 : Vec F S4x1024 .f32) (x8 : Vec F S1024 .f32) (x9 : Vec F S1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = cellBlock x0 x1 x2 x3 x4 x5 x6 x7 x8 x9 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_words
  rw [View.canon_unit_zero hz2]
  rw [readCov_whole, readCov_whole, readCov_whole, readCov_whole]
  rw [slot0, slot2, slot1]
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S256x1024) hz2, View.ld_unit_zero (S := S1024x4096) hz2, View.ld_unit_zero (S := S4096) hz1,
    View.ld_unit_zero (S := S1024) hz1]
  rfl

/-- What the run leaves in the new hidden state's staging buffer is `hidBlock` of the input blocks. -/
theorem out10_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x4096 .f32) (harg13 : arg13.IsWhole) (arg14 : Memref sig .tc .vmem S4x256x1024 .f32) (harg14 : arg14.IsWhole) (x0 : Vec F S256x1024 .f32) (x1 : Vec F S256x1024 .f32) (x2 : Vec F S256x1024 .f32) (x3 : Vec F S1024x4096 .bf16) (x4 : Vec F S1024x4096 .bf16) (x5 : Vec F S4096 .f32) (x6 : Vec F S4x1024 .f32) (x7 : Vec F S4x1024 .f32) (x8 : Vec F S1024 .f32) (x9 : Vec F S1024 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = hidBlock x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_words
  rw [View.canon_unit_zero hz2]
  rw [readCov_whole, readCov_whole, readCov_whole, readCov_whole]
  rw [slot0, slot2, slot3, slot1]
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S256x1024) hz2, View.ld_unit_zero (S := S1024x4096) hz2, View.ld_unit_zero (S := S4096) hz1,
    View.ld_unit_zero (S := S1024) hz1]
  rfl

end Cert.KernelIdeal.Block
end
-- ==== Proof.RowNorm.lean ====
/-
  The mathematics both programs compute, index by index, on the extended reals.

  Row normalisation: for a row `u` of 1024 entries with scale `g` and shift `b`,
    mean u      = (∑ k, u k) / 1024
    centred u j = u j - mean u
    variance u  = (∑ k, centred u k * centred u k) / 1023        (the unbiased estimate)
    norm u g b j = g j * centred u j / (sqrt (variance u) + eps) + b j   (eps is added to the deviation).

  The cell: the pre-activation of batch row `r` at gate column `q` (of 4096 = 4 gates of 1024) is
    x r · w_ih q + h r · w_hh q + b_ih q;
  gate `g` of row `r` is the normalisation of the 1024 pre-activations at columns `g * 1024 + j`, with row `g` of
  the gates' scale and shift; with i, f, g, o the gates 0, 1, 2, 3,
    raw r j  = c r j * σ (f r j + 1) + σ (i r j) * tanh (g r j)
    newC r   = norm (raw r) gamma_c beta_c
    newH r j = tanh (newC r j) * σ (o r j).
  The constants are kept as the binary32 words the programs spell.
-/
import Idealize.ShloMosaic.PureOps.Ideal
import Idealize.ShloMosaic.Lib.ValueIdx

noncomputable section

namespace Cert.Cell

open Idealize.ShloMosaic Idealize.ShloMosaic.ValueIdx

/-- A matrix of extended reals with `a` rows and `b` columns, as a function of its index. -/
abbrev Mat (a b : Nat) : Type := (⟨2, ![a, b]⟩ : Shape).Idx → EReal
/-- A vector of `a` extended reals, as a function of its index. -/
abbrev Arr (a : Nat) : Type := (⟨1, ![a]⟩ : Shape).Idx → EReal

/-- 1024.0, the row length. -/
def c1024 : EReal := Ideal.ofBits .f32 0x44800000#32
/-- 1023.0, the row length less one. -/
def c1023 : EReal := Ideal.ofBits .f32 0x447FC000#32
/-- The binary32 nearest to 1e-6, added to the deviation. -/
def ceps : EReal := Ideal.ofBits .f32 0x358637BD#32
/-- 1.0, the forget gate's bias. -/
def cone : EReal := Ideal.ofBits .f32 0x3F800000#32

/-- The mean of a row of 1024 entries. -/
def mean (u : Fin 1024 → EReal) : EReal := Ideal.div (∑ k : Fin 1024, u k) c1024

/-- The unbiased variance of a row of 1024 entries. -/
def variance (u : Fin 1024 → EReal) : EReal :=
  Ideal.div (∑ k : Fin 1024, (u k - mean u) * (u k - mean u)) c1023

/-- The normalised row: scale times the centred entry, over the deviation plus eps, plus the shift. -/
def norm (u g b : Fin 1024 → EReal) (j : Fin 1024) : EReal :=
  Ideal.div (g j * (u j - mean u)) (Ideal.sqrt (variance u) + ceps) + b j

/-- Column `g * 1024 + j` of the 4096 gate columns: entry `j` of gate `g`. -/
def gateCol (g : Fin 4) (j : Fin 1024) : Fin 4096 := ⟨g.val * 1024 + j.val, by omega⟩

/-- The pre-activation of batch row `r` at gate column `q`: both products, then the bias. -/
def pre (x h : Mat 8192 1024) (wi : Mat 4096 1024) (bi : Arr 4096) (wh : Mat 4096 1024) (r : Fin 8192) (q : Fin 4096) : EReal :=
  (∑ k : Fin 1024, x (ix2 r k) * wi (ix2 q k)) + (∑ k : Fin 1024, h (ix2 r k) * wh (ix2 q k)) + bi (ix1 q)

/-- Gate `g` of batch row `r`, normalised over its 1024 columns with row `g` of the gates' scale and shift. -/
def gate (x h : Mat 8192 1024) (wi : Mat 4096 1024) (bi : Arr 4096) (wh : Mat 4096 1024) (gam bet : Mat 4 1024)
    (r : Fin 8192) (g : Fin 4) (j : Fin 1024) : EReal :=
  norm (fun j' => pre x h wi bi wh r (gateCol g j')) (fun j' => gam (ix2 g j')) (fun j' => bet (ix2 g j')) j

/-- The cell state before its normalisation. -/
def raw (x h c : Mat 8192 1024) (wi : Mat 4096 1024) (bi : Arr 4096) (wh : Mat 4096 1024) (gam bet : Mat 4 1024)
    (r : Fin 8192) (j : Fin 1024) : EReal :=
  c (ix2 r j) * Ideal.logistic (gate x h wi bi wh gam bet r 1 j + cone)
    + Ideal.logistic (gate x h wi bi wh gam bet r 0 j) * Ideal.tanh (gate x h wi bi wh gam bet r 2 j)

/-- The new cell state at row `r`, column `j`. -/
def newCAt (x h c : Mat 8192 1024) (wi : Mat 4096 1024) (bi : Arr 4096) (wh : Mat 4096 1024) (gam bet : Mat 4 1024)
    (gc bc : Arr 1024) (r : Fin 8192) (j : Fin 1024) : EReal :=
  norm (fun j' => raw x h c wi bi wh gam bet r j') (fun j' => gc (ix1 j')) (fun j' => bc (ix1 j')) j

/-- The new hidden state at row `r`, column `j`. -/
def newHAt (x h c : Mat 8192 1024) (wi : Mat 4096 1024) (bi : Arr 4096) (wh : Mat 4096 1024) (gam bet : Mat 4 1024)
    (gc bc : Arr 1024) (r : Fin 8192) (j : Fin 1024) : EReal :=
  Ideal.tanh (newCAt x h c wi bi wh gam bet gc bc r j) * Ideal.logistic (gate x h wi bi wh gam bet r 3 j)

/-- The new cell state as a whole array. -/
def newC (x h c : Mat 8192 1024) (wi : Mat 4096 1024) (bi : Arr 4096) (wh : Mat 4096 1024) (gam bet : Mat 4 1024)
    (gc bc : Arr 1024) : Mat 8192 1024 :=
  fun i => newCAt x h c wi bi wh gam bet gc bc (i 0) (i 1)

/-- The new hidden state as a whole array. -/
def newH (x h c : Mat 8192 1024) (wi : Mat 4096 1024) (bi : Arr 4096) (wh : Mat 4096 1024) (gam bet : Mat 4 1024)
    (gc bc : Arr 1024) : Mat 8192 1024 :=
  fun i => newHAt x h c wi bi wh gam bet gc bc (i 0) (i 1)

/-- 1024.0 denotes the real 1024. -/
theorem c1024_eq : c1024 = ((1024 : ℝ) : EReal) := by
  unfold c1024; simp [Ideal.ofBits, Ideal.ieee, -EReal.coe_mul]; norm_num

/-- 1023.0 denotes the real 1023. -/
theorem c1023_eq : c1023 = ((1023 : ℝ) : EReal) := by
  unfold c1023; simp [Ideal.ofBits, Ideal.ieee, -EReal.coe_mul]; norm_num

/-- 1.0 denotes 1. -/
theorem cone_eq : cone = 1 := by
  unfold cone; simp [Ideal.ofBits, Ideal.ieee, -EReal.coe_mul]; norm_num

end Cert.Cell

end
-- ==== Proof.NormBlock.lean ====
/-
  The row normalisation as the kernel's body spells it on a block of 256 rows, and what it is at an index.

  On a block `u` of 256 rows of 1024 entries: the row sums are a lane reduction, cast to a column, divided by
  1024 and broadcast back along the rows (`centred`); the deviation is the square root of the centred squares'
  row sums over 1023 (`deviation`); the result scales the centred block by a row vector, divides by the
  deviation plus eps broadcast along the rows, and adds a row vector (`normBlock`). Every payload of the body
  that normalises is one of these three, by definition. At the extended reals, entry (p, q) of `normBlock u g b`
  is the normalisation `Cell.norm` of row p of `u` at q.
-/
import proofs.«163425_j78262894067860_2_alg».proof.Proof.Gen.KernelIdeal.Skeleton
import proofs.«163425_j78262894067860_2_alg».proof.Proof.RowNorm
import Idealize.ShloMosaic.PureOps.Ideal.Laws
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

variable {F : FTy → Type} [FloatOps F]

/-- The row sums of a block, as a column. -/
def rowSums (u : FVec F S256x1024 .f32) : FVec F S256x1 .f32 :=
  shapeCast S256x1 (multiReduction .add [1] S256 u 0x00000000#32 reduces_S256x1024_S256 (.inl rfl) rfl) shapeCasts_S256_S256x1

/-- The block less its row means. -/
def centred (u : FVec F S256x1024 .f32) : FVec F S256x1024 .f32 :=
  subf u (broadcastTo S256x1024 (divf (rowSums u) (broadcast S256x1 (Scalar.ofBits .f32 0x44800000#32))) broadcasts_S256x1_S256x1024)

/-- The rows' deviations, as a column: the root of the centred squares' sums over 1023. -/
def deviation (u : FVec F S256x1024 .f32) : FVec F S256x1 .f32 :=
  sqrt (divf (rowSums (mulf (centred u) (centred u))) (broadcast S256x1 (Scalar.ofBits .f32 0x447FC000#32)))

/-- The normalised block: scale times centred, over deviation plus eps, plus shift. -/
def normBlock (u : FVec F S256x1024 .f32) (g b : FVec F S1024 .f32) : FVec F S256x1024 .f32 :=
  addf
    (divf (mulf (broadcastTo S256x1024 (shapeCast S1x1024 g shapeCasts_S1024_S1x1024) broadcasts_S1x1024_S256x1024) (centred u))
      (broadcastTo S256x1024 (addf (deviation u) (broadcast S256x1 (Scalar.ofBits .f32 0x358637BD#32))) broadcasts_S256x1_S256x1024))
    (broadcastTo S256x1024 (shapeCast S1x1024 b shapeCasts_S1024_S1x1024) broadcasts_S1x1024_S256x1024)

/-! ## The body's normalising payloads are these, by definition -/

theorem pay6_eq (u : Vec F S256x1024 .f32) : k0_pay6 u = centred u := rfl
theorem pay7_eq (u : Vec F S256x1024 .f32) : k0_pay7 u = deviation u := rfl
theorem pay8_eq (g b : FVec F S1024 .f32) (u : Vec F S256x1024 .f32) :
    k0_pay8 g b (centred u) (deviation u) = shapeCast S1x256x1024 (normBlock u g b) shapeCasts_S256x1024_S1x256x1024 := rfl
theorem pay9_eq (u : Vec F S256x1024 .f32) (g b : Vec F S1x1024 .f32) :
    k0_pay9 u g b = normBlock u (shapeCast S1024 g shapeCasts_S1x1024_S1024) (shapeCast S1024 b shapeCasts_S1x1024_S1024) := rfl
theorem pay11_eq (u : Vec F S256x1024 .f32) (g b : Vec F S1x1024 .f32) :
    k0_pay11 u g b = shapeCast S1x256x1024
      (normBlock u (shapeCast S1024 g shapeCasts_S1x1024_S1024) (shapeCast S1024 b shapeCasts_S1x1024_S1024)) shapeCasts_S256x1024_S1x256x1024 := rfl
theorem pay14_eq (u : Vec F S256x1024 .f32) (g b : FVec F S1024 .f32) :
    k0_pay14 u g b = shapeCast S1x256x1024 (normBlock u g b) shapeCasts_S256x1024_S1x256x1024 := rfl
theorem pay1_eq (i g : FVec F S256x1024 .f32) (c : Vec F S256x1024 .f32) (f : FVec F S256x1024 .f32) (gc bc : Vec F S1024 .f32) :
    k0_pay1 i g c f gc bc = normBlock (addf (mulf c f) (mulf (logistic i) (tanh g))) gc bc := rfl

/-! ## At the extended reals -/

/-- A row sum of a block, read at its row. -/
theorem rowSums_apply (u : FVec Ideal S256x1024 .f32) (p : Fin 256) (z : Fin 1) :
    rowSums u (ix2 p z) = ∑ k : Fin 1024, u (ix2 p k) := by
  unfold rowSums
  refine (shapeCast_apply _ shapeCasts_S256_S256x1 (ix2 p z) (ix1 p) (by
    rw [Shape.rowMajor_val_one, Shape.rowMajor_val_two]
    show p.val = p.val * 1 + z.val
    omega)).trans ?_
  refine (Ideal.multiReduction_add_single u 0x00000000#32 reduces_S256x1024_S256 (.inl rfl) rfl (ix1 p)).trans ?_
  exact Finset.sum_congr rfl fun k _ => congrArg u (funext fun a => Fin.ext (by
    match a with
    | ⟨0, _⟩ => rfl
    | ⟨1, _⟩ => rfl))

/-- A column broadcast along the rows, read at an entry, is the column at the row. -/
theorem bcastCol_apply (c : FVec Ideal S256x1 .f32) (p : Fin 256) (q : Fin 1024) :
    broadcastTo S256x1024 c broadcasts_S256x1_S256x1024 (ix2 p q) = c (ix2 p (0 : Fin 1)) :=
  broadcastTo_apply c broadcasts_S256x1_S256x1024 (ix2 p q) (ix2 p (0 : Fin 1)) fun a => by
    match a with
    | ⟨0, _⟩ => rfl
    | ⟨1, _⟩ => rfl

/-- A row vector broadcast down the rows, read at an entry, is the vector at the column. -/
theorem bcastRow_apply (g : FVec Ideal S1024 .f32) (p : Fin 256) (q : Fin 1024) :
    broadcastTo S256x1024 (shapeCast S1x1024 g shapeCasts_S1024_S1x1024) broadcasts_S1x1024_S256x1024 (ix2 p q) = g (ix1 q) :=
  (broadcastTo_1b_ab_apply _ broadcasts_S1x1024_S256x1024 p q).trans
    (shapeCast_a_1a_apply g shapeCasts_S1024_S1x1024 (0 : Fin 1) q)

/-- The centred block at an entry: the entry less its row's mean. -/
theorem centred_apply (u : FVec Ideal S256x1024 .f32) (p : Fin 256) (q : Fin 1024) :
    centred u (ix2 p q) = u (ix2 p q) - Cell.mean (fun j => u (ix2 p j)) := by
  show u (ix2 p q) - broadcastTo S256x1024 _ broadcasts_S256x1_S256x1024 (ix2 p q) = _
  rw [bcastCol_apply]
  show u (ix2 p q) - Ideal.div (rowSums u (ix2 p (0 : Fin 1))) (Ideal.ofBits .f32 0x44800000#32) = _
  rw [rowSums_apply]
  rfl

/-- The deviation of a row: the root of its variance. -/
theorem deviation_apply (u : FVec Ideal S256x1024 .f32) (p : Fin 256) (z : Fin 1) :
    deviation u (ix2 p z) = Ideal.sqrt (Cell.variance (fun j => u (ix2 p j))) := by
  show Ideal.sqrt (Ideal.div (rowSums (mulf (centred u) (centred u)) (ix2 p z)) (Ideal.ofBits .f32 0x447FC000#32)) = _
  rw [rowSums_apply]
  refine congrArg (fun s => Ideal.sqrt (Ideal.div s (Ideal.ofBits .f32 0x447FC000#32))) ?_
  exact Finset.sum_congr rfl fun k _ => by
    show centred u (ix2 p k) * centred u (ix2 p k) = _
    rw [centred_apply]

/-- The normalised block at an entry is the normalisation of the entry's row. -/
theorem normBlock_apply (u : FVec Ideal S256x1024 .f32) (g b : FVec Ideal S1024 .f32) (p : Fin 256) (q : Fin 1024) :
    normBlock u g b (ix2 p q) = Cell.norm (fun j => u (ix2 p j)) (fun j => g (ix1 j)) (fun j => b (ix1 j)) q := by
  show Ideal.div (broadcastTo S256x1024 (shapeCast S1x1024 g shapeCasts_S1024_S1x1024) broadcasts_S1x1024_S256x1024 (ix2 p q) * centred u (ix2 p q))
      (broadcastTo S256x1024 (addf (deviation u) (broadcast S256x1 (Scalar.ofBits .f32 0x358637BD#32))) broadcasts_S256x1_S256x1024 (ix2 p q))
    + broadcastTo S256x1024 (shapeCast S1x1024 b shapeCasts_S1024_S1x1024) broadcasts_S1x1024_S256x1024 (ix2 p q) = _
  rw [bcastRow_apply, bcastRow_apply, bcastCol_apply, centred_apply]
  show Ideal.div (g (ix1 q) * (u (ix2 p q) - Cell.mean fun j => u (ix2 p j)))
      (deviation u (ix2 p (0 : Fin 1)) + Ideal.ofBits .f32 0x358637BD#32) + b (ix1 q) = _
  rw [deviation_apply]
  rfl

end Cert.KernelIdeal.Block

end
-- ==== Proof.PreBlock.lean ====
/-
  The pre-activation block: for a block of 256 batch rows, both products against the (transposed) weights, summed,
  plus the bias broadcast down the rows. At the extended reals its entry (p, q) is
  (∑ k, x p k * wi k q) + (∑ k, h p k * wh k q) + b q: a matrix product into a zero accumulator is the plain sum
  over the contracted axis, and narrowing to a shorter float format is the identity.
-/
import proofs.«163425_j78262894067860_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The block product's dimension numbers: rows of the left against columns of the right. -/
abbrev DD : DotDims S256x1024 S1024x4096 S256x4096 := dot_S256x1024_S1024x4096_S256x4096_1_0_0_1_n_n

theorem lhs_row (i : S256x4096.Idx) (q : DD.contr.Idx) : (DD.lhsIdx i q 0).val = (i 0).val := by
  unfold DotDims.lhsIdx
  rw [dif_neg (show ¬(0 : Fin S256x1024.rank) ∈ DD.lhsBatch by decide),
    dif_pos (show (0 : Fin S256x1024.rank) ∈ DD.lhsNonContracting by decide)]
  rfl

theorem lhs_contr (i : S256x4096.Idx) (q : DD.contr.Idx) : (DD.lhsIdx i q 1).val = (q ⟨0, by decide⟩).val :=
  DD.lhsIdx_val_of_single rfl i q

theorem rhs_contr (i : S256x4096.Idx) (q : DD.contr.Idx) : (DD.rhsIdx i q 0).val = (q ⟨0, by decide⟩).val :=
  DD.rhsIdx_val_of_single rfl i q

theorem rhs_col (i : S256x4096.Idx) (q : DD.contr.Idx) : (DD.rhsIdx i q 1).val = (i 1).val := by
  unfold DotDims.rhsIdx
  rw [dif_neg (show ¬(1 : Fin S1024x4096.rank) ∈ DD.rhsBatch by decide),
    dif_pos (show (1 : Fin S1024x4096.rank) ∈ DD.rhsNonContracting by decide)]
  rfl

/-- One product of a block of rows with a weight matrix, into a zero accumulator, at an entry: the sum over the
    contracted axis of the row's entries times the column's. -/
theorem product_apply (l : FVec Ideal S256x1024 .bf16) (r : FVec Ideal S1024x4096 .bf16) (p : Fin 256) (q : Fin 4096) :
    matmul DD none l r (constant S256x4096 .f32 0x00000000#32) (ix2 p q) = ∑ k : Fin 1024, l (ix2 p k) * r (ix2 k q) := by
  simp only [matmul]
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 p q) ((contrEquiv1 DD 1024 rfl rfl).symm k) = ix2 p k := funext fun a => Fin.ext (by
    match a with
    | ⟨0, _⟩ => exact lhs_row _ _
    | ⟨1, _⟩ => exact (lhs_contr _ _).trans hk)
  have er : DD.rhsIdx (ix2 p q) ((contrEquiv1 DD 1024 rfl rfl).symm k) = ix2 k q := funext fun a => Fin.ext (by
    match a with
    | ⟨0, _⟩ => exact (rhs_contr _ _).trans hk
    | ⟨1, _⟩ => exact rhs_col _ _)
  rw [el, er]

/-- The bias broadcast down the rows, at an entry. -/
theorem bias_apply (b : FVec Ideal S4096 .f32) (p : Fin 256) (q : Fin 4096) :
    broadcastTo S256x4096 (shapeCast S1x4096 b shapeCasts_S4096_S1x4096) broadcasts_S1x4096_S256x4096 (ix2 p q) = b (ix1 q) :=
  (broadcastTo_1b_ab_apply _ broadcasts_S1x4096_S256x4096 p q).trans
    (shapeCast_a_1a_apply b shapeCasts_S4096_S1x4096 (0 : Fin 1) q)

/-- The pre-activation block in a plain spelling (the body's, less its identity casts). -/
theorem pay3_eq (x h : FVec Ideal S256x1024 .f32) (wi wh : FVec Ideal S1024x4096 .bf16) (b : FVec Ideal S4096 .f32) :
    k0_pay3 x h wi wh b
      = addf (addf (matmul DD none (truncf .bf16 x bitsLt_bf16_f32) wi (constant S256x4096 .f32 0x00000000#32))
            (matmul DD none (truncf .bf16 h bitsLt_bf16_f32) wh (constant S256x4096 .f32 0x00000000#32)))
          (broadcastTo S256x4096 (shapeCast S1x4096 b shapeCasts_S4096_S1x4096) broadcasts_S1x4096_S256x4096) := by
  unfold k0_pay3
  simp only [shapeCast_self]

/-- The pre-activation block at an entry. -/
theorem pay3_apply (x h : FVec Ideal S256x1024 .f32) (wi wh : FVec Ideal S1024x4096 .bf16) (b : FVec Ideal S4096 .f32)
    (p : Fin 256) (q : Fin 4096) :
    k0_pay3 x h wi wh b (ix2 p q)
      = (∑ k : Fin 1024, x (ix2 p k) * wi (ix2 k q)) + (∑ k : Fin 1024, h (ix2 p k) * wh (ix2 k q)) + b (ix1 q) := by
  rw [pay3_eq]
  show matmul DD none (truncf .bf16 x bitsLt_bf16_f32) wi (constant S256x4096 .f32 0x00000000#32) (ix2 p q)
      + matmul DD none (truncf .bf16 h bitsLt_bf16_f32) wh (constant S256x4096 .f32 0x00000000#32) (ix2 p q)
      + broadcastTo S256x4096 (shapeCast S1x4096 b shapeCasts_S4096_S1x4096) broadcasts_S1x4096_S256x4096 (ix2 p q) = _
  rw [product_apply, product_apply, bias_apply]
  rfl

end Cert.KernelIdeal.Block

end
-- ==== Proof.CellRows.lean ====
/-
  The cell of one batch row. Every output entry depends on the batch only through its own row: row r of x, h and c.
  So the cell is stated here over one row's data — xr, hr, cr : the row of x, h, c; wi q k, wh q k : the weights;
  bi q : the bias; gam g j, bet g j : the gates' scale and shift; gc j, bc j : the cell's — and the whole-array
  specification is this at row r, by definition. A grid point's block computes exactly these rows.
-/
import proofs.«163425_j78262894067860_2_alg».proof.Proof.RowNorm

noncomputable section

namespace Cert.Cell

open Idealize.ShloMosaic Idealize.ShloMosaic.ValueIdx

/-- One row's pre-activation at gate column `q`. -/
def preRow (xr hr : Fin 1024 → EReal) (wi wh : Fin 4096 → Fin 1024 → EReal) (bi : Fin 4096 → EReal) (q : Fin 4096) : EReal :=
  (∑ k : Fin 1024, xr k * wi q k) + (∑ k : Fin 1024, hr k * wh q k) + bi q

/-- One row's gate `g`, normalised. -/
def gateRow (xr hr : Fin 1024 → EReal) (wi wh : Fin 4096 → Fin 1024 → EReal) (bi : Fin 4096 → EReal)
    (gam bet : Fin 4 → Fin 1024 → EReal) (g : Fin 4) (j : Fin 1024) : EReal :=
  norm (fun j' => preRow xr hr wi wh bi (gateCol g j')) (gam g) (bet g) j

/-- One row's cell state before its normalisation. -/
def rawRow (xr hr cr : Fin 1024 → EReal) (wi wh : Fin 4096 → Fin 1024 → EReal) (bi : Fin 4096 → EReal)
    (gam bet : Fin 4 → Fin 1024 → EReal) (j : Fin 1024) : EReal :=
  cr j * Ideal.logistic (gateRow xr hr wi wh bi gam bet 1 j + cone)
    + Ideal.logistic (gateRow xr hr wi wh bi gam bet 0 j) * Ideal.tanh (gateRow xr hr wi wh bi gam bet 2 j)

/-- One row's new cell state. -/
def newCRow (xr hr cr : Fin 1024 → EReal) (wi wh : Fin 4096 → Fin 1024 → EReal) (bi : Fin 4096 → EReal)
    (gam bet : Fin 4 → Fin 1024 → EReal) (gc bc : Fin 1024 → EReal) (j : Fin 1024) : EReal :=
  norm (rawRow xr hr cr wi wh bi gam bet) gc bc j

/-- One row's new hidden state. -/
def newHRow (xr hr cr : Fin 1024 → EReal) (wi wh : Fin 4096 → Fin 1024 → EReal) (bi : Fin 4096 → EReal)
    (gam bet : Fin 4 → Fin 1024 → EReal) (gc bc : Fin 1024 → EReal) (j : Fin 1024) : EReal :=
  Ideal.tanh (newCRow xr hr cr wi wh bi gam bet gc bc j) * Ideal.logistic (gateRow xr hr wi wh bi gam bet 3 j)

/-- The whole-array new cell state at (r, j) is row r's. -/
theorem newCAt_eq_row (x h c : Mat 8192 1024) (wi : Mat 4096 1024) (bi : Arr 4096) (wh : Mat 4096 1024) (gam bet : Mat 4 1024)
    (gc bc : Arr 1024) (r : Fin 8192) (j : Fin 1024) :
    newCAt x h c wi bi wh gam bet gc bc r j
      = newCRow (fun k => x (ix2 r k)) (fun k => h (ix2 r k)) (fun k => c (ix2 r k)) (fun q k => wi (ix2 q k))
          (fun q k => wh (ix2 q k)) (fun q => bi (ix1 q)) (fun g k => gam (ix2 g k)) (fun g k => bet (ix2 g k))
          (fun k => gc (ix1 k)) (fun k => bc (ix1 k)) j := rfl

/-- The whole-array new hidden state at (r, j) is row r's. -/
theorem newHAt_eq_row (x h c : Mat 8192 1024) (wi : Mat 4096 1024) (bi : Arr 4096) (wh : Mat 4096 1024) (gam bet : Mat 4 1024)
    (gc bc : Arr 1024) (r : Fin 8192) (j : Fin 1024) :
    newHAt x h c wi bi wh gam bet gc bc r j
      = newHRow (fun k => x (ix2 r k)) (fun k => h (ix2 r k)) (fun k => c (ix2 r k)) (fun q k => wi (ix2 q k))
          (fun q k => wh (ix2 q k)) (fun q => bi (ix1 q)) (fun g k => gam (ix2 g k)) (fun g k => bet (ix2 g k))
          (fun k => gc (ix1 k)) (fun k => bc (ix1 k)) j := rfl

end Cert.Cell

end
-- ==== Proof.BlockCell.lean ====
/-
  The two output blocks at an entry, at the extended reals: entry (p, q) of the new cell state's block is the new cell
  state of block row p at q, and likewise the new hidden state — as functions of the rows of the input blocks.

  Slab g of the pre-activation block at (p, j) is the pre-activation at column g * 1024 + j; row g of the gates'
  scale read as a 1 × 1024 array is that row; a value stored in a slot and read back passes through two shape casts
  that add and drop a leading unit axis. Each gate's slot is therefore the row normalisation of its slab.
-/
import proofs.«163425_j78262894067860_2_alg».proof.Proof.BodyBlocks
import proofs.«163425_j78262894067860_2_alg».proof.Proof.NormBlock
import proofs.«163425_j78262894067860_2_alg».proof.Proof.PreBlock
import proofs.«163425_j78262894067860_2_alg».proof.Proof.CellRows

noncomputable section

namespace Cert.KernelIdeal.Block

open Cert.KernelIdeal Cert.KernelIdeal.Gen Idealize.ShloMosaic Idealize.ShloMosaic.ValueIdx

/-- A slab of the pre-activation block at (p, j) is the block at (p, k + j). -/
theorem slab_apply (k : Nat) (inb) (P : FVec Ideal S256x4096 .f32) (p : Fin 256) (j : Fin 1024) (q : Fin 4096) (hq : q.val = k + j.val) :
    slab (F := Ideal) k inb P (ix2 p j) = P (ix2 p q) :=
  congrArg P (funext fun a => Fin.ext (by
    match a with
    | ⟨0, _⟩ => show 0 + 1 * p.val = p.val; omega
    | ⟨1, _⟩ => show k + 1 * j.val = q.val; omega))

/-- Row k of a 4 × 1024 array, read as 1 × 1024 at (z, j), is the array at (k, j). -/
theorem rowOf_apply (k : Nat) (inb) (x : FVec Ideal S4x1024 .f32) (z : Fin 1) (j : Fin 1024) (g : Fin 4) (hg : g.val = k) :
    rowOf (F := Ideal) k inb x (ix2 z j) = x (ix2 g j) :=
  congrArg x (funext fun a => Fin.ext (by
    match a with
    | ⟨0, _⟩ => show k + 1 * z.val = g.val; have := z.isLt; omega
    | ⟨1, _⟩ => show 0 + 1 * j.val = j.val; omega))

/-- A normalised slab with rows g of scale and shift, at (p, j): the row normalisation of the pre-activations of gate g. -/
theorem normSlab_apply (k : Nat) (inb) (P : FVec Ideal S256x4096 .f32) (gv bv : FVec Ideal S1024 .f32) (x6 x7 : FVec Ideal S4x1024 .f32)
    (g : Fin 4) (hk : k = g.val * 1024) (hg : ∀ j, gv (ix1 j) = x6 (ix2 g j)) (hb : ∀ j, bv (ix1 j) = x7 (ix2 g j))
    (p : Fin 256) (j : Fin 1024) :
    normBlock (slab (F := Ideal) k inb P) gv bv (ix2 p j)
      = Cell.norm (fun j' => P (ix2 p (Cell.gateCol g j'))) (fun j' => x6 (ix2 g j')) (fun j' => x7 (ix2 g j')) j := by
  rw [normBlock_apply]
  have e1 : (fun j' => slab (F := Ideal) k inb P (ix2 p j')) = fun j' => P (ix2 p (Cell.gateCol g j')) :=
    funext fun j' => slab_apply k inb P p j' (Cell.gateCol g j') (by show g.val * 1024 + j'.val = k + j'.val; omega)
  have e2 : (fun j' => gv (ix1 j')) = fun j' => x6 (ix2 g j') := funext hg
  have e3 : (fun j' => bv (ix1 j')) = fun j' => x7 (ix2 g j') := funext hb
  rw [e1, e2, e3]

/-- A row of the scale, cast to a vector, at j. -/
theorem rowVec_apply (k : Nat) (inb) (x : FVec Ideal S4x1024 .f32) (g : Fin 4) (hg : g.val = k) (j : Fin 1024) :
    shapeCast S1024 (rowOf (F := Ideal) k inb x) shapeCasts_S1x1024_S1024 (ix1 j) = x (ix2 g j) :=
  (shapeCast_1a_a_apply _ shapeCasts_S1x1024_S1024 j).trans (rowOf_apply k inb x (0 : Fin 1) j g hg)

variable (P : FVec Ideal S256x4096 .f32) (x6 x7 : FVec Ideal S4x1024 .f32)

/-- Slot 0, read back and cast to a block, at (p, j). -/
theorem gate0_apply (p : Fin 256) (j : Fin 1024) :
    k0_pay15 (F := Ideal) (gate0 (F := Ideal) P x6 x7) (ix2 p j)
      = Cell.norm (fun j' => P (ix2 p (Cell.gateCol 0 j'))) (fun j' => x6 (ix2 0 j')) (fun j' => x7 (ix2 0 j')) j := by
  unfold gate0 k0_pay15
  rw [pay6_eq, pay7_eq, pay8_eq]
  refine (shapeCast_1ab_ab_apply _ shapeCasts_S1x256x1024_S256x1024 p j).trans ?_
  refine (shapeCast_ab_1ab_apply _ shapeCasts_S256x1024_S1x256x1024 (0 : Fin 1) p j).trans ?_
  exact normSlab_apply 0 _ P _ _ x6 x7 0 rfl (fun j' => rowVec_apply 0 _ x6 0 rfl j') (fun j' => rowVec_apply 0 _ x7 0 rfl j') p j

/-- Slot 1, read back and cast to a block, at (p, j). -/
theorem gate1_apply (p : Fin 256) (j : Fin 1024) :
    shapeCast S256x1024 (gate1 (F := Ideal) P x6 x7) shapeCasts_S1x256x1024_S256x1024 (ix2 p j)
      = Cell.norm (fun j' => P (ix2 p (Cell.gateCol 1 j'))) (fun j' => x6 (ix2 1 j')) (fun j' => x7 (ix2 1 j')) j := by
  unfold gate1 k0_pay10
  rw [pay9_eq]
  refine (shapeCast_1ab_ab_apply _ shapeCasts_S1x256x1024_S256x1024 p j).trans ?_
  refine (shapeCast_ab_1ab_apply _ shapeCasts_S256x1024_S1x256x1024 (0 : Fin 1) p j).trans ?_
  exact normSlab_apply 1024 _ P _ _ x6 x7 1 rfl (fun j' => rowVec_apply 1 _ x6 1 rfl j') (fun j' => rowVec_apply 1 _ x7 1 rfl j') p j

/-- Slot 2, read back and cast to a block, at (p, j). -/
theorem gate2_apply (p : Fin 256) (j : Fin 1024) :
    k0_pay16 (F := Ideal) (gate2 (F := Ideal) P x6 x7) (ix2 p j)
      = Cell.norm (fun j' => P (ix2 p (Cell.gateCol 2 j'))) (fun j' => x6 (ix2 2 j')) (fun j' => x7 (ix2 2 j')) j := by
  unfold gate2 k0_pay16
  rw [pay11_eq]
  refine (shapeCast_1ab_ab_apply _ shapeCasts_S1x256x1024_S256x1024 p j).trans ?_
  refine (shapeCast_ab_1ab_apply _ shapeCasts_S256x1024_S1x256x1024 (0 : Fin 1) p j).trans ?_
  exact normSlab_apply 2048 _ P _ _ x6 x7 2 rfl (fun j' => rowVec_apply 2 _ x6 2 rfl j') (fun j' => rowVec_apply 2 _ x7 2 rfl j') p j

/-- Slot 3, read back and cast to a block, at (p, j). -/
theorem gate3_apply (p : Fin 256) (j : Fin 1024) :
    k0_pay17 (F := Ideal) (gate3 (F := Ideal) P x6 x7) (ix2 p j)
      = Cell.norm (fun j' => P (ix2 p (Cell.gateCol 3 j'))) (fun j' => x6 (ix2 3 j')) (fun j' => x7 (ix2 3 j')) j := by
  unfold gate3 k0_pay17 k0_pay12 k0_pay13
  rw [pay14_eq]
  refine (shapeCast_1ab_ab_apply _ shapeCasts_S1x256x1024_S256x1024 p j).trans ?_
  refine (shapeCast_ab_1ab_apply _ shapeCasts_S256x1024_S1x256x1024 (0 : Fin 1) p j).trans ?_
  exact normSlab_apply 3072 _ P _ _ x6 x7 3 rfl (fun j' => rowVec_apply 3 _ x6 3 rfl j') (fun j' => rowVec_apply 3 _ x7 3 rfl j') p j

section Blocks

variable (x0 x1 x2 : FVec Ideal S256x1024 .f32) (x3 x4 : FVec Ideal S1024x4096 .bf16) (x5 : FVec Ideal S4096 .f32)
  (x6 x7 : FVec Ideal S4x1024 .f32) (x8 x9 : FVec Ideal S1024 .f32)

/-- Gate g's pre-activations of block row p are that row's. -/
theorem preRow_eq (p : Fin 256) (g : Fin 4) :
    (fun j' => k0_pay3 (F := Ideal) x0 x1 x3 x4 x5 (ix2 p (Cell.gateCol g j')))
      = fun j' => Cell.preRow (fun k => x0 (ix2 p k)) (fun k => x1 (ix2 p k)) (fun q' k => x3 (ix2 k q')) (fun q' k => x4 (ix2 k q'))
          (fun q' => x5 (ix1 q')) (Cell.gateCol g j') :=
  funext fun j' => pay3_apply x0 x1 x3 x4 x5 p (Cell.gateCol g j')

/-- The cell state before its normalisation, at (p, j), is block row p's. -/
theorem rawBlock_apply (p : Fin 256) (j : Fin 1024) :
    addf (mulf x2 (k0_pay18 (F := Ideal) (gate1 (F := Ideal) (k0_pay3 (F := Ideal) x0 x1 x3 x4 x5) x6 x7)))
        (mulf (logistic (k0_pay15 (F := Ideal) (gate0 (F := Ideal) (k0_pay3 (F := Ideal) x0 x1 x3 x4 x5) x6 x7))) (tanh (k0_pay16 (F := Ideal) (gate2 (F := Ideal) (k0_pay3 (F := Ideal) x0 x1 x3 x4 x5) x6 x7)))) (ix2 p j)
      = Cell.rawRow (fun k => x0 (ix2 p k)) (fun k => x1 (ix2 p k)) (fun k => x2 (ix2 p k)) (fun q' k => x3 (ix2 k q'))
          (fun q' k => x4 (ix2 k q')) (fun q' => x5 (ix1 q')) (fun g k => x6 (ix2 g k)) (fun g k => x7 (ix2 g k)) j := by
  show x2 (ix2 p j) * Ideal.logistic (shapeCast S256x1024 (gate1 (F := Ideal) (k0_pay3 (F := Ideal) x0 x1 x3 x4 x5) x6 x7) shapeCasts_S1x256x1024_S256x1024 (ix2 p j)
        + Ideal.ofBits .f32 0x3F800000#32)
      + Ideal.logistic (k0_pay15 (F := Ideal) (gate0 (F := Ideal) (k0_pay3 (F := Ideal) x0 x1 x3 x4 x5) x6 x7) (ix2 p j))
        * Ideal.tanh (k0_pay16 (F := Ideal) (gate2 (F := Ideal) (k0_pay3 (F := Ideal) x0 x1 x3 x4 x5) x6 x7) (ix2 p j)) = _
  rw [gate0_apply, gate1_apply, gate2_apply, preRow_eq, preRow_eq, preRow_eq]
  rfl

/-- Entry (p, q) of the new cell state's block is block row p's new cell state at q. -/
theorem cellBlock_apply (p : Fin 256) (q : Fin 1024) :
    cellBlock (F := Ideal) x0 x1 x2 x3 x4 x5 x6 x7 x8 x9 (ix2 p q)
      = Cell.newCRow (fun k => x0 (ix2 p k)) (fun k => x1 (ix2 p k)) (fun k => x2 (ix2 p k)) (fun q' k => x3 (ix2 k q'))
          (fun q' k => x4 (ix2 k q')) (fun q' => x5 (ix1 q')) (fun g k => x6 (ix2 g k)) (fun g k => x7 (ix2 g k))
          (fun k => x8 (ix1 k)) (fun k => x9 (ix1 k)) q := by
  unfold cellBlock
  rw [pay1_eq, normBlock_apply]
  unfold Cell.newCRow
  exact congrArg (fun f => Cell.norm f (fun k => x8 (ix1 k)) (fun k => x9 (ix1 k)) q)
    (funext fun j => rawBlock_apply x0 x1 x2 x3 x4 x5 x6 x7 p j)

/-- Entry (p, q) of the new hidden state's block is block row p's new hidden state at q. -/
theorem hidBlock_apply (p : Fin 256) (q : Fin 1024) :
    hidBlock (F := Ideal) x0 x1 x2 x3 x4 x5 x6 x7 x8 x9 (ix2 p q)
      = Cell.newHRow (fun k => x0 (ix2 p k)) (fun k => x1 (ix2 p k)) (fun k => x2 (ix2 p k)) (fun q' k => x3 (ix2 k q'))
          (fun q' k => x4 (ix2 k q')) (fun q' => x5 (ix1 q')) (fun g k => x6 (ix2 g k)) (fun g k => x7 (ix2 g k))
          (fun k => x8 (ix1 k)) (fun k => x9 (ix1 k)) q := by
  unfold hidBlock k0_pay2
  show Ideal.tanh (k0_pay1 (F := Ideal) (k0_pay15 (F := Ideal) (gate0 (F := Ideal) (k0_pay3 (F := Ideal) x0 x1 x3 x4 x5) x6 x7)) (k0_pay16 (F := Ideal) (gate2 (F := Ideal) (k0_pay3 (F := Ideal) x0 x1 x3 x4 x5) x6 x7)) x2
        (k0_pay18 (F := Ideal) (gate1 (F := Ideal) (k0_pay3 (F := Ideal) x0 x1 x3 x4 x5) x6 x7)) x8 x9 (ix2 p q))
      * Ideal.logistic (k0_pay17 (F := Ideal) (gate3 (F := Ideal) (k0_pay3 (F := Ideal) x0 x1 x3 x4 x5) x6 x7) (ix2 p q)) = _
  rw [gate3_apply, preRow_eq]
  have hc := cellBlock_apply x0 x1 x2 x3 x4 x5 x6 x7 x8 x9 p q
  unfold cellBlock at hc
  rw [hc]
  rfl

end Blocks

end Cert.KernelIdeal.Block

end
-- ==== Proof.WholeArrays.lean ====
/-
  From blocks to the whole arrays. Grid point t computes rows 256 t … 256 t + 255: its blocks of x, h and c are those
  rows, and its two output blocks are written back to those rows. The weights the body sees are the transposes of the
  weight arguments (narrowing to a shorter float format being the identity at the extended reals); the bias, the
  gates' scale and shift and the cell's are staged whole. So what point t writes back is block t of the whole-array
  cell, and since the 32 points' blocks tile the 8192 rows, the two result arrays are the whole-array cell.
-/
import proofs.«163425_j78262894067860_2_alg».proof.Proof.Gen.KernelIdeal.Value
import proofs.«163425_j78262894067860_2_alg».proof.Proof.BodyBlocks
import proofs.«163425_j78262894067860_2_alg».proof.Proof.BlockCell
import proofs.«163425_j78262894067860_2_alg».proof.Proof.CellRows
import Idealize.ShloMosaic.Lib.StableHlo.Run

set_option maxRecDepth 16384

noncomputable section

namespace Cert.KernelIdeal.Whole

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The printed index maps, decided once over the grid -/

theorem idx_batch : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem idx_resident : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 1) = 0 :=
  (by decide +kernel : ∀ t : Fin grid0.N, _)

/-! ## What the weight windows stage: the transposed weights -/

theorem staged_wi (c : Dev nD) (k : Fin 1024) (q : Fin 4096) :
    (V m c main_v1 : S1024x4096.Idx → EReal) (ix2 k q) = (m ((c : Thread nD τ).loc main_arg3)) (ix2 q k) := by
  have e : (V m c main_v1 : S1024x4096.Idx → EReal)
      = transpose S1024x4096 [1, 0] (truncf (F := Ideal) .bf16 (m ((c : Thread nD τ).loc main_arg3)) bitsLt_bf16_f32) transposes_S4096x1024_S1024x4096_1_0 := by
    dsimp only [Gen.V, Gen.hostOps0]; after_results
  rw [e]
  exact transpose_ix2_apply _ transposes_S4096x1024_S1024x4096_1_0 k q

theorem staged_wh (c : Dev nD) (k : Fin 1024) (q : Fin 4096) :
    (V m c main_v3 : S1024x4096.Idx → EReal) (ix2 k q) = (m ((c : Thread nD τ).loc main_arg5)) (ix2 q k) := by
  have e : (V m c main_v3 : S1024x4096.Idx → EReal)
      = transpose S1024x4096 [1, 0] (truncf (F := Ideal) .bf16 (m ((c : Thread nD τ).loc main_arg5)) bitsLt_bf16_f32) transposes_S4096x1024_S1024x4096_1_0 := by
    dsimp only [Gen.V, Gen.hostOps0]; after_results
  rw [e]
  exact transpose_ix2_apply _ transposes_S4096x1024_S1024x4096_1_0 k q

/-! ## The input blocks at an entry -/

/-- Window 0's block at point t, at (p, k), is the array at row 256 t + p. -/
theorem entry0 (c : Dev nD) (t : Fin cfg0.N) (p : Fin 256) (k : Fin 1024) (r : Fin 8192) (hr : r.val = t.val * 256 + p.val) :
    (iblk m c 0 t : S256x1024.Idx → EReal) (ix2 p k) = (m ((c : Thread nD τ).loc main_arg0)) (ix2 r k) := by
  show V m c main_arg0 (((cfg0.win 0).blk t).view.emb (ix2 p k)) = _
  rw [V_main_arg0]
  obtain ⟨e0, e1, e2, e3, e4, e5, e6, e7, e8, e9⟩ := idx_batch t
  refine congrArg _ (funext fun a => Fin.ext ?_)
  match a with
  | ⟨0, _⟩ => show win0_0.index t (0 : Fin 2) * 256 + 1 * p.val = r.val; rw [e0]; omega
  | ⟨1, _⟩ => show win0_0.index t (1 : Fin 2) * 1024 + 1 * k.val = k.val; rw [e1]; omega

/-- Window 1's block at point t, at (p, k), is the array at row 256 t + p. -/
theorem entry1 (c : Dev nD) (t : Fin cfg0.N) (p : Fin 256) (k : Fin 1024) (r : Fin 8192) (hr : r.val = t.val * 256 + p.val) :
    (iblk m c 1 t : S256x1024.Idx → EReal) (ix2 p k) = (m ((c : Thread nD τ).loc main_arg1)) (ix2 r k) := by
  show V m c main_arg1 (((cfg0.win 1).blk t).view.emb (ix2 p k)) = _
  rw [V_main_arg1]
  obtain ⟨e0, e1, e2, e3, e4, e5, e6, e7, e8, e9⟩ := idx_batch t
  refine congrArg _ (funext fun a => Fin.ext ?_)
  match a with
  | ⟨0, _⟩ => show win0_1.index t (0 : Fin 2) * 256 + 1 * p.val = r.val; rw [e2]; omega
  | ⟨1, _⟩ => show win0_1.index t (1 : Fin 2) * 1024 + 1 * k.val = k.val; rw [e3]; omega

/-- Window 2's block at point t, at (p, k), is the array at row 256 t + p. -/
theorem entry2 (c : Dev nD) (t : Fin cfg0.N) (p : Fin 256) (k : Fin 1024) (r : Fin 8192) (hr : r.val = t.val * 256 + p.val) :
    (iblk m c 2 t : S256x1024.Idx → EReal) (ix2 p k) = (m ((c : Thread nD τ).loc main_arg2)) (ix2 r k) := by
  show V m c main_arg2 (((cfg0.win 2).blk t).view.emb (ix2 p k)) = _
  rw [V_main_arg2]
  obtain ⟨e0, e1, e2, e3, e4, e5, e6, e7, e8, e9⟩ := idx_batch t
  refine congrArg _ (funext fun a => Fin.ext ?_)
  match a with
  | ⟨0, _⟩ => show win0_2.index t (0 : Fin 2) * 256 + 1 * p.val = r.val; rw [e4]; omega
  | ⟨1, _⟩ => show win0_2.index t (1 : Fin 2) * 1024 + 1 * k.val = k.val; rw [e5]; omega

theorem entry3 (c : Dev nD) (t : Fin cfg0.N) (a : Fin 1024) (b : Fin 4096) :
    (iblk m c 3 t : S1024x4096.Idx → EReal) (ix2 a b) = (m ((c : Thread nD τ).loc main_arg3)) (ix2 b a) := by
  show V m c main_v1 (((cfg0.win 3).blk t).view.emb (ix2 a b)) = _
  obtain ⟨e0, e1, e2, e3, e4, e5, e6, e7, e8, e9, e10⟩ := idx_resident t
  have he : ((cfg0.win 3).blk t).view.emb (ix2 a b) = ix2 a b := funext fun ax => Fin.ext (by
    match ax with
    | ⟨0, _⟩ => show win0_3.index t (0 : Fin 2) * 1024 + 1 * a.val = a.val; rw [e0]; omega
    | ⟨1, _⟩ => show win0_3.index t (1 : Fin 2) * 4096 + 1 * b.val = b.val; rw [e1]; omega)
  rw [he]
  exact staged_wi m c a b

theorem entry4 (c : Dev nD) (t : Fin cfg0.N) (a : Fin 1024) (b : Fin 4096) :
    (iblk m c 4 t : S1024x4096.Idx → EReal) (ix2 a b) = (m ((c : Thread nD τ).loc main_arg5)) (ix2 b a) := by
  show V m c main_v3 (((cfg0.win 4).blk t).view.emb (ix2 a b)) = _
  obtain ⟨e0, e1, e2, e3, e4, e5, e6, e7, e8, e9, e10⟩ := idx_resident t
  have he : ((cfg0.win 4).blk t).view.emb (ix2 a b) = ix2 a b := funext fun ax => Fin.ext (by
    match ax with
    | ⟨0, _⟩ => show win0_4.index t (0 : Fin 2) * 1024 + 1 * a.val = a.val; rw [e2]; omega
    | ⟨1, _⟩ => show win0_4.index t (1 : Fin 2) * 4096 + 1 * b.val = b.val; rw [e3]; omega)
  rw [he]
  exact staged_wh m c a b

theorem entry5 (c : Dev nD) (t : Fin cfg0.N) (a : Fin 4096) :
    (iblk m c 5 t : S4096.Idx → EReal) (ix1 a) = (m ((c : Thread nD τ).loc main_arg4)) (ix1 a) := by
  show V m c main_arg4 (((cfg0.win 5).blk t).view.emb (ix1 a)) = _
  obtain ⟨e0, e1, e2, e3, e4, e5, e6, e7, e8, e9, e10⟩ := idx_resident t
  have he : ((cfg0.win 5).blk t).view.emb (ix1 a) = ix1 a := funext fun ax => Fin.ext (by
    match ax with
    | ⟨0, _⟩ => show win0_5.index t (0 : Fin 1) * 4096 + 1 * a.val = a.val; rw [e4]; omega)
  rw [he, V_main_arg4]

theorem entry6 (c : Dev nD) (t : Fin cfg0.N) (a : Fin 4) (b : Fin 1024) :
    (iblk m c 6 t : S4x1024.Idx → EReal) (ix2 a b) = (m ((c : Thread nD τ).loc main_arg6)) (ix2 a b) := by
  show V m c main_arg6 (((cfg0.win 6).blk t).view.emb (ix2 a b)) = _
  obtain ⟨e0, e1, e2, e3, e4, e5, e6, e7, e8, e9, e10⟩ := idx_resident t
  have he : ((cfg0.win 6).blk t).view.emb (ix2 a b) = ix2 a b := funext fun ax => Fin.ext (by
    match ax with
    | ⟨0, _⟩ => show win0_6.index t (0 : Fin 2) * 4 + 1 * a.val = a.val; rw [e5]; omega
    | ⟨1, _⟩ => show win0_6.index t (1 : Fin 2) * 1024 + 1 * b.val = b.val; rw [e6]; omega)
  rw [he]
  rw [V_main_arg6]

theorem entry7 (c : Dev nD) (t : Fin cfg0.N) (a : Fin 4) (b : Fin 1024) :
    (iblk m c 7 t : S4x1024.Idx → EReal) (ix2 a b) = (m ((c : Thread nD τ).loc main_arg7)) (ix2 a b) := by
  show V m c main_arg7 (((cfg0.win 7).blk t).view.emb (ix2 a b)) = _
  obtain ⟨e0, e1, e2, e3, e4, e5, e6, e7, e8, e9, e10⟩ := idx_resident t
  have he : ((cfg0.win 7).blk t).view.emb (ix2 a b) = ix2 a b := funext fun ax => Fin.ext (by
    match ax with
    | ⟨0, _⟩ => show win0_7.index t (0 : Fin 2) * 4 + 1 * a.val = a.val; rw [e7]; omega
    | ⟨1, _⟩ => show win0_7.index t (1 : Fin 2) * 1024 + 1 * b.val = b.val; rw [e8]; omega)
  rw [he]
  rw [V_main_arg7]

theorem entry8 (c : Dev nD) (t : Fin cfg0.N) (a : Fin 1024) :
    (iblk m c 8 t : S1024.Idx → EReal) (ix1 a) = (m ((c : Thread nD τ).loc main_arg8)) (ix1 a) := by
  show V m c main_arg8 (((cfg0.win 8).blk t).view.emb (ix1 a)) = _
  obtain ⟨e0, e1, e2, e3, e4, e5, e6, e7, e8, e9, e10⟩ := idx_resident t
  have he : ((cfg0.win 8).blk t).view.emb (ix1 a) = ix1 a := funext fun ax => Fin.ext (by
    match ax with
    | ⟨0, _⟩ => show win0_8.index t (0 : Fin 1) * 1024 + 1 * a.val = a.val; rw [e9]; omega)
  rw [he, V_main_arg8]

theorem entry9 (c : Dev nD) (t : Fin cfg0.N) (a : Fin 1024) :
    (iblk m c 9 t : S1024.Idx → EReal) (ix1 a) = (m ((c : Thread nD τ).loc main_arg9)) (ix1 a) := by
  show V m c main_arg9 (((cfg0.win 9).blk t).view.emb (ix1 a)) = _
  obtain ⟨e0, e1, e2, e3, e4, e5, e6, e7, e8, e9, e10⟩ := idx_resident t
  have he : ((cfg0.win 9).blk t).view.emb (ix1 a) = ix1 a := funext fun ax => Fin.ext (by
    match ax with
    | ⟨0, _⟩ => show win0_9.index t (0 : Fin 1) * 1024 + 1 * a.val = a.val; rw [e10]; omega)
  rw [he, V_main_arg9]

/-! ## Output window 11 -/

theorem mem_blk11 (t : Fin cfg0.N) (i : S8192x1024.Idx) :
    i ∈ ((cfg0.win 11).blk t).view.set ↔ ∀ a : Fin 2, win0_11.index t a * S256x1024.size a ≤ (i a).val
      ∧ (i a).val < win0_11.index t a * S256x1024.size a + S256x1024.size a := by
  show i ∈ ((View.whole main_v4_1).slice (win0_11.rect t)).set ↔ _
  rw [View.set_slice_whole, Rect.mem_set_unit]
  exact Iff.rfl

/-- What point t writes back to window 11's array is block t of the whole-array cell. -/
theorem flushed11_eq (c : Dev nD) (t : Fin cfg0.N) :
    (dats m 0 c).flushed 11 t = ((cfg0.win 11).blk t).view.read (Elt Ideal) (Cell.newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed11_A, Block.out11_eq]
  funext j
  obtain ⟨p, q, rfl⟩ : ∃ (p : Fin 256) (q : Fin 1024), j = ix2 p q := ⟨j 0, j 1, eq_ix2 j⟩
  have hN : cfg0.N = 32 := N_0
  have ht : t.val < 32 := by have := t.isLt; omega
  obtain ⟨e0, e1, e2, e3, e4, e5, e6, e7, e8, e9⟩ := idx_batch t
  have hemb : ((cfg0.win 11).blk t).view.emb (ix2 p q) = ix2 (⟨t.val * 256 + p.val, by have := p.isLt; omega⟩ : Fin 8192) q :=
    funext fun a => Fin.ext (by
      match a with
      | ⟨0, _⟩ => show win0_11.index t (0 : Fin 2) * 256 + 1 * p.val = t.val * 256 + p.val; rw [e8]; omega
      | ⟨1, _⟩ => show win0_11.index t (1 : Fin 2) * 1024 + 1 * q.val = q.val; rw [e9]; omega)
  show Block.cellBlock (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q) = Cell.newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 11).blk t).view.emb (ix2 p q))
  rw [hemb]
  refine (Block.cellBlock_apply (iblk m c 0 t) (iblk m c 1 t) (iblk m c 2 t) (iblk m c 3 t) (iblk m c 4 t) (iblk m c 5 t) (iblk m c 6 t) (iblk m c 7 t) (iblk m c 8 t) (iblk m c 9 t) p q).trans ?_
  show _ = Cell.newCAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (⟨t.val * 256 + p.val, by have := p.isLt; omega⟩ : Fin 8192) q
  rw [Cell.newCAt_eq_row]
  have r0 : (fun k => (iblk m c 0 t : S256x1024.Idx → EReal) (ix2 p k)) = fun k => (m ((c : Thread nD τ).loc main_arg0)) (ix2 (⟨t.val * 256 + p.val, by have := p.isLt; omega⟩ : Fin 8192) k) :=
    funext fun k => entry0 m c t p k _ rfl
  have r1 : (fun k => (iblk m c 1 t : S256x1024.Idx → EReal) (ix2 p k)) = fun k => (m ((c : Thread nD τ).loc main_arg1)) (ix2 (⟨t.val * 256 + p.val, by have := p.isLt; omega⟩ : Fin 8192) k) :=
    funext fun k => entry1 m c t p k _ rfl
  have r2 : (fun k => (iblk m c 2 t : S256x1024.Idx → EReal) (ix2 p k)) = fun k => (m ((c : Thread nD τ).loc main_arg2)) (ix2 (⟨t.val * 256 + p.val, by have := p.isLt; omega⟩ : Fin 8192) k) :=
    funext fun k => entry2 m c t p k _ rfl
  have r3 : (fun (q' : Fin 4096) (k : Fin 1024) => (iblk m c 3 t : S1024x4096.Idx → EReal) (ix2 k q')) = fun q' k => (m ((c : Thread nD τ).loc main_arg3)) (ix2 q' k) :=
    funext fun q' => funext fun k => entry3 m c t k q'
  have r4 : (fun (q' : Fin 4096) (k : Fin 1024) => (iblk m c 4 t : S1024x4096.Idx → EReal) (ix2 k q')) = fun q' k => (m ((c : Thread nD τ).loc main_arg5)) (ix2 q' k) :=
    funext fun q' => funext fun k => entry4 m c t k q'
  have r5 : (fun (q' : Fin 4096) => (iblk m c 5 t : S4096.Idx → EReal) (ix1 q')) = fun q' => (m ((c : Thread nD τ).loc main_arg4)) (ix1 q') :=
    funext fun q' => entry5 m c t q'
  have r6 : (fun (g : Fin 4) (k : Fin 1024) => (iblk m c 6 t : S4x1024.Idx → EReal) (ix2 g k)) = fun g k => (m ((c : Thread nD τ).loc main_arg6)) (ix2 g k) :=
    funext fun g => funext fun k => entry6 m c t g k
  have r7 : (fun (g : Fin 4) (k : Fin 1024) => (iblk m c 7 t : S4x1024.Idx → EReal) (ix2 g k)) = fun g k => (m ((c : Thread nD τ).loc main_arg7)) (ix2 g k) :=
    funext fun g => funext fun k => entry7 m c t g k
  have r8 : (fun (k : Fin 1024) => (iblk m c 8 t : S1024.Idx → EReal) (ix1 k)) = fun k => (m ((c : Thread nD τ).loc main_arg8)) (ix1 k) :=
    funext fun k => entry8 m c t k
  have r9 : (fun (k : Fin 1024) => (iblk m c 9 t : S1024.Idx → EReal) (ix1 k)) = fun k => (m ((c : Thread nD τ).loc main_arg9)) (ix1 k) :=
    funext fun k => entry9 m c t k
  rw [r0, r1, r2, r3, r4, r5, r6, r7, r8, r9]

/-- Every index of window 11's array is in some point's block: row r is in block r / 256. -/
theorem cover11 (i : S8192x1024.Idx) : ∃ t : Fin cfg0.N, (cfg0.win 11).flush t = true ∧ i ∈ ((cfg0.win 11).blk t).view.set := by
  have hN : cfg0.N = 32 := N_0
  have hi0 : (i 0).val < 8192 := (i 0).isLt
  have hi1 : (i 1).val < 1024 := (i 1).isLt
  refine ⟨⟨(i 0).val / 256, by omega⟩, flush0_11 _, ?_⟩
  rw [mem_blk11]
  obtain ⟨e0, e1, e2, e3, e4, e5, e6, e7, e8, e9⟩ := idx_batch (⟨(i 0).val / 256, by omega⟩ : Fin cfg0.N)
  intro a
  match a with
  | ⟨0, _⟩ =>
    show win0_11.index _ (0 : Fin 2) * 256 ≤ (i 0).val ∧ (i 0).val < win0_11.index _ (0 : Fin 2) * 256 + 256
    rw [e8]
    show (i 0).val / 256 * 256 ≤ (i 0).val ∧ (i 0).val < (i 0).val / 256 * 256 + 256
    omega
  | ⟨1, _⟩ =>
    show win0_11.index _ (1 : Fin 2) * 1024 ≤ (i 1).val ∧ (i 1).val < win0_11.index _ (1 : Fin 2) * 1024 + 1024
    rw [e9]
    omega

/-- Window 11's array after the run is the whole-array cell. -/
theorem final11 (c : Dev nD) : (dats m 0 c).arrAt 11 cfg0.N = Cell.newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 11 (Cell.newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushed11_eq m c t) (cover11)

/-! ## Output window 10 -/

theorem mem_blk10 (t : Fin cfg0.N) (i : S8192x1024.Idx) :
    i ∈ ((cfg0.win 10).blk t).view.set ↔ ∀ a : Fin 2, win0_10.index t a * S256x1024.size a ≤ (i a).val
      ∧ (i a).val < win0_10.index t a * S256x1024.size a + S256x1024.size a := by
  show i ∈ ((View.whole main_v4_0).slice (win0_10.rect t)).set ↔ _
  rw [View.set_slice_whole, Rect.mem_set_unit]
  exact Iff.rfl

/-- What point t writes back to window 10's array is block t of the whole-array cell. -/
theorem flushed10_eq (c : Dev nD) (t : Fin cfg0.N) :
    (dats m 0 c).flushed 10 t = ((cfg0.win 10).blk t).view.read (Elt Ideal) (Cell.newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed10_A, Block.out10_eq]
  funext j
  obtain ⟨p, q, rfl⟩ : ∃ (p : Fin 256) (q : Fin 1024), j = ix2 p q := ⟨j 0, j 1, eq_ix2 j⟩
  have hN : cfg0.N = 32 := N_0
  have ht : t.val < 32 := by have := t.isLt; omega
  obtain ⟨e0, e1, e2, e3, e4, e5, e6, e7, e8, e9⟩ := idx_batch t
  have hemb : ((cfg0.win 10).blk t).view.emb (ix2 p q) = ix2 (⟨t.val * 256 + p.val, by have := p.isLt; omega⟩ : Fin 8192) q :=
    funext fun a => Fin.ext (by
      match a with
      | ⟨0, _⟩ => show win0_10.index t (0 : Fin 2) * 256 + 1 * p.val = t.val * 256 + p.val; rw [e6]; omega
      | ⟨1, _⟩ => show win0_10.index t (1 : Fin 2) * 1024 + 1 * q.val = q.val; rw [e7]; omega)
  show Block.hidBlock (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q) = Cell.newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb (ix2 p q))
  rw [hemb]
  refine (Block.hidBlock_apply (iblk m c 0 t) (iblk m c 1 t) (iblk m c 2 t) (iblk m c 3 t) (iblk m c 4 t) (iblk m c 5 t) (iblk m c 6 t) (iblk m c 7 t) (iblk m c 8 t) (iblk m c 9 t) p q).trans ?_
  show _ = Cell.newHAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (⟨t.val * 256 + p.val, by have := p.isLt; omega⟩ : Fin 8192) q
  rw [Cell.newHAt_eq_row]
  have r0 : (fun k => (iblk m c 0 t : S256x1024.Idx → EReal) (ix2 p k)) = fun k => (m ((c : Thread nD τ).loc main_arg0)) (ix2 (⟨t.val * 256 + p.val, by have := p.isLt; omega⟩ : Fin 8192) k) :=
    funext fun k => entry0 m c t p k _ rfl
  have r1 : (fun k => (iblk m c 1 t : S256x1024.Idx → EReal) (ix2 p k)) = fun k => (m ((c : Thread nD τ).loc main_arg1)) (ix2 (⟨t.val * 256 + p.val, by have := p.isLt; omega⟩ : Fin 8192) k) :=
    funext fun k => entry1 m c t p k _ rfl
  have r2 : (fun k => (iblk m c 2 t : S256x1024.Idx → EReal) (ix2 p k)) = fun k => (m ((c : Thread nD τ).loc main_arg2)) (ix2 (⟨t.val * 256 + p.val, by have := p.isLt; omega⟩ : Fin 8192) k) :=
    funext fun k => entry2 m c t p k _ rfl
  have r3 : (fun (q' : Fin 4096) (k : Fin 1024) => (iblk m c 3 t : S1024x4096.Idx → EReal) (ix2 k q')) = fun q' k => (m ((c : Thread nD τ).loc main_arg3)) (ix2 q' k) :=
    funext fun q' => funext fun k => entry3 m c t k q'
  have r4 : (fun (q' : Fin 4096) (k : Fin 1024) => (iblk m c 4 t : S1024x4096.Idx → EReal) (ix2 k q')) = fun q' k => (m ((c : Thread nD τ).loc main_arg5)) (ix2 q' k) :=
    funext fun q' => funext fun k => entry4 m c t k q'
  have r5 : (fun (q' : Fin 4096) => (iblk m c 5 t : S4096.Idx → EReal) (ix1 q')) = fun q' => (m ((c : Thread nD τ).loc main_arg4)) (ix1 q') :=
    funext fun q' => entry5 m c t q'
  have r6 : (fun (g : Fin 4) (k : Fin 1024) => (iblk m c 6 t : S4x1024.Idx → EReal) (ix2 g k)) = fun g k => (m ((c : Thread nD τ).loc main_arg6)) (ix2 g k) :=
    funext fun g => funext fun k => entry6 m c t g k
  have r7 : (fun (g : Fin 4) (k : Fin 1024) => (iblk m c 7 t : S4x1024.Idx → EReal) (ix2 g k)) = fun g k => (m ((c : Thread nD τ).loc main_arg7)) (ix2 g k) :=
    funext fun g => funext fun k => entry7 m c t g k
  have r8 : (fun (k : Fin 1024) => (iblk m c 8 t : S1024.Idx → EReal) (ix1 k)) = fun k => (m ((c : Thread nD τ).loc main_arg8)) (ix1 k) :=
    funext fun k => entry8 m c t k
  have r9 : (fun (k : Fin 1024) => (iblk m c 9 t : S1024.Idx → EReal) (ix1 k)) = fun k => (m ((c : Thread nD τ).loc main_arg9)) (ix1 k) :=
    funext fun k => entry9 m c t k
  rw [r0, r1, r2, r3, r4, r5, r6, r7, r8, r9]

/-- Every index of window 10's array is in some point's block: row r is in block r / 256. -/
theorem cover10 (i : S8192x1024.Idx) : ∃ t : Fin cfg0.N, (cfg0.win 10).flush t = true ∧ i ∈ ((cfg0.win 10).blk t).view.set := by
  have hN : cfg0.N = 32 := N_0
  have hi0 : (i 0).val < 8192 := (i 0).isLt
  have hi1 : (i 1).val < 1024 := (i 1).isLt
  refine ⟨⟨(i 0).val / 256, by omega⟩, flush0_10 _, ?_⟩
  rw [mem_blk10]
  obtain ⟨e0, e1, e2, e3, e4, e5, e6, e7, e8, e9⟩ := idx_batch (⟨(i 0).val / 256, by omega⟩ : Fin cfg0.N)
  intro a
  match a with
  | ⟨0, _⟩ =>
    show win0_10.index _ (0 : Fin 2) * 256 ≤ (i 0).val ∧ (i 0).val < win0_10.index _ (0 : Fin 2) * 256 + 256
    rw [e6]
    show (i 0).val / 256 * 256 ≤ (i 0).val ∧ (i 0).val < (i 0).val / 256 * 256 + 256
    omega
  | ⟨1, _⟩ =>
    show win0_10.index _ (1 : Fin 2) * 1024 ≤ (i 1).val ∧ (i 1).val < win0_10.index _ (1 : Fin 2) * 1024 + 1024
    rw [e7]
    omega

/-- Window 10's array after the run is the whole-array cell. -/
theorem final10 (c : Dev nD) : (dats m 0 c).arrAt 10 cfg0.N = Cell.newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 (Cell.newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushed10_eq m c t) (cover10)

/-! ## The run, read -/

/-- Every weakly fair execution of the idealized kernel ends with its two results at the whole-array cell of its
    arguments, the arguments unchanged. -/
theorem run : θ_run defs (onTc (τ := τ) (main (F := Ideal))) ⟨m, fun _ => 0, ρ⟩ fun r => ∀ c : Dev nD,
      r.2.mem ((c : Thread nD τ).loc main_v4_0) = Cell.newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v4_1) = Cell.newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Value.run_blocks m ρ)

end Cert.KernelIdeal.Whole

end
-- ==== Proof.RefTerm.lean ====
/-
  What the reference program's two results are, as functions of its ten argument arrays: the host
  operations composed in the order the program applies them, cut into named pieces.

  With x, h, c the batch arrays, w_ih, b_ih, w_hh the weights and bias, and the scale and shift pairs of the
  gates and of the cell:
    preact   = (x · w_ihᵀ + b_ih + h · w_hhᵀ) viewed as 4 gates of 1024 columns;
    rowMean  = the row sums over the last axis, divided by 1024;
    centred  = the array less its row mean;
    rowVar   = the row sums of the centred squares, divided by (1024 - 1), the 1 an integer constant converted;
    std      = the square root of rowVar (selected against a NaN fill by the test 1024 - 1 > 0);
    norm     = scale * centred / (std + eps) + shift;
    the four gates are the slices of the normalised array at gate 0, 1, 2, 3;
    raw cell = c * σ(gate 1 + 1) + σ(gate 0) * tanh(gate 2),  σ(t) = 1 / (1 + exp(-t));
    new cell = norm of the raw cell with the cell's scale and shift;
    new hidden = tanh(new cell) * σ(gate 3).
  Nothing here is evaluated: every definition is a symbolic composition of array operations.
-/
import proofs.«163425_j78262894067860_2_alg».proof.Proof.Gen.ReferenceIdeal

noncomputable section

namespace Cert.RefTerm

open Cert.ReferenceIdeal Cert.ReferenceIdeal.Gen Idealize.ShloMosaic

variable {F : FTy → Type} [FloatOps F]

/-! ## Constants -/

/-- The scalar 0.0, the initial value of every row sum. -/
def zero0 : FVec F S_ .f32 := constant S_ .f32 0x00000000#32
/-- The scalar 1024.0, the row length. -/
def len0 : FVec F S_ .f32 := constant S_ .f32 0x44800000#32
/-- The scalar nearest 1e-6, added to the deviation. -/
def eps0 : FVec F S_ .f32 := constant S_ .f32 0x358637BD#32
/-- The scalar 1.0. -/
def one0 : FVec F S_ .f32 := constant S_ .f32 0x3F800000#32
/-- The scalar quiet NaN, the fill of the variance's selection. -/
def nan0 : FVec F S_ .f32 := constant S_ .f32 0x7FC00000#32
/-- The row length less the correction: 1024.0 minus the integer constant 1 converted. -/
def dof0 : FVec F S_ .f32 := subf len0 (sitofp .f32 (constantI S_ 32 1#32))
/-- The test "the row length less the correction is positive", as one bit. -/
def dofPos0 : IVec S_ 1 := cmpf .ogt (dof0 (F := F)) zero0
/-- The 8192 × 1024 array of ones. -/
def ones : FVec F S8192x1024 .f32 := broadcastInDim S8192x1024 ![] bcast_S_S8192x1024 one0

/-- The logistic function over an 8192 × 1024 array: 1 / (1 + exp(-t)). -/
def sigm (t : FVec F S8192x1024 .f32) : FVec F S8192x1024 .f32 :=
  Host.divf ones (addf ones (Host.exp (Host.negf t)))

/-! ## The pre-activations -/

/-- The pre-activations: x · w_ihᵀ, plus the bias along every row, plus h · w_hhᵀ, viewed as
    8192 × 4 × 1024. -/
def preact (a0 a1 : FVec F S8192x1024 .f32) (a3 : FVec F S4096x1024 .f32) (a4 : FVec F S4096 .f32)
    (a5 : FVec F S4096x1024 .f32) : FVec F S8192x4x1024 .f32 :=
  shapeCast S8192x4x1024
    (addf
      (addf (Host.dotGeneral dot_S8192x1024_S4096x1024_S8192x4096_1_1_0_0_n_n none a0 a3)
        (broadcastInDim S8192x4096 ![0, 1] bcast_S1x4096_S8192x4096_0_1
          (broadcastInDim S1x4096 ![1] bcast_S4096_S1x4096_1 a4)))
      (Host.dotGeneral dot_S8192x1024_S4096x1024_S8192x4096_1_1_0_0_n_n none a1 a5))
    shapeCasts_S8192x4096_S8192x4x1024

/-! ## Row statistics of the gates (rows of 1024 inside 8192 × 4 × 1024) -/

/-- The mean of every gate row. -/
def meanGates (v : FVec F S8192x4x1024 .f32) : FVec F S8192x4x1 .f32 :=
  Host.divf
    (broadcastInDim S8192x4x1 ![0, 1] bcast_S8192x4_S8192x4x1_0_1
      (Host.reduceAdd v zero0 reducesTo_S8192x4x1024_S8192x4_d2 h_S_))
    (broadcastInDim S8192x4x1 ![] bcast_S_S8192x4x1 len0)

/-- Every gate row less its mean. -/
def centGates (v : FVec F S8192x4x1024 .f32) : FVec F S8192x4x1024 .f32 :=
  subf v (broadcastInDim S8192x4x1024 ![0, 1, 2] bcast_S8192x4x1_S8192x4x1024_0_1_2 (meanGates v))

/-- The unbiased variance of every gate row. -/
def varGates (v : FVec F S8192x4x1024 .f32) : FVec F S8192x4x1 .f32 :=
  Host.divf
    (broadcastInDim S8192x4x1 ![0, 1] bcast_S8192x4_S8192x4x1_0_1
      (Host.reduceAdd (mulf (centGates v) (centGates v)) zero0 reducesTo_S8192x4x1024_S8192x4_d2 h_S_))
    (broadcastInDim S8192x4x1 ![] bcast_S_S8192x4x1 dof0)

/-- The deviation of every gate row: the square root of the variance, the variance selected against the
    NaN fill by the test on the divisor. -/
def stdGates (v6 : FVec F S8192x4x1024 .f32) : FVec F S8192x4x1 .f32 :=
  Host.sqrt
    (select (broadcastInDim S8192x4x1 ![] bcast_S_S8192x4x1 (dofPos0 (F := F))) (varGates v6)
      (broadcastInDim S8192x4x1 ![] bcast_S_S8192x4x1 nan0))

/-- The normalised gates: scale times centred, over deviation plus eps, plus shift. -/
def normGates (v6 : FVec F S8192x4x1024 .f32) (a6 a7 : FVec F S4x1024 .f32) : FVec F S8192x4x1024 .f32 :=
  addf
    (Host.divf
      (mulf
        (broadcastInDim S8192x4x1024 ![0, 1, 2] bcast_S1x4x1024_S8192x4x1024_0_1_2
          (broadcastInDim S1x4x1024 ![1, 2] bcast_S4x1024_S1x4x1024_1_2 a6))
        (centGates v6))
      (broadcastInDim S8192x4x1024 ![0, 1, 2] bcast_S8192x4x1_S8192x4x1024_0_1_2
        (addf (stdGates v6) (broadcastInDim S8192x4x1 ![] bcast_S_S8192x4x1 eps0))))
    (broadcastInDim S8192x4x1024 ![0, 1, 2] bcast_S1x4x1024_S8192x4x1024_0_1_2
      (broadcastInDim S1x4x1024 ![1, 2] bcast_S4x1024_S1x4x1024_1_2 a7))

/-! ## The four gates -/

/-- Gate 0 (input) of the normalised array. -/
def gate0 (v23 : FVec F S8192x4x1024 .f32) : FVec F S8192x1024 .f32 :=
  shapeCast S8192x1024 (extractStridedSlice S8192x1x1024 ![0, 0, 0] v23 slices_S8192x4x1024_S8192x1x1024_0_0_0)
    shapeCasts_S8192x1x1024_S8192x1024
/-- Gate 1 (forget). -/
def gate1 (v23 : FVec F S8192x4x1024 .f32) : FVec F S8192x1024 .f32 :=
  shapeCast S8192x1024 (extractStridedSlice S8192x1x1024 ![0, 1, 0] v23 slices_S8192x4x1024_S8192x1x1024_0_1_0)
    shapeCasts_S8192x1x1024_S8192x1024
/-- Gate 2 (candidate). -/
def gate2 (v23 : FVec F S8192x4x1024 .f32) : FVec F S8192x1024 .f32 :=
  shapeCast S8192x1024 (extractStridedSlice S8192x1x1024 ![0, 2, 0] v23 slices_S8192x4x1024_S8192x1x1024_0_2_0)
    shapeCasts_S8192x1x1024_S8192x1024
/-- Gate 3 (output). -/
def gate3 (v23 : FVec F S8192x4x1024 .f32) : FVec F S8192x1024 .f32 :=
  shapeCast S8192x1024 (extractStridedSlice S8192x1x1024 ![0, 3, 0] v23 slices_S8192x4x1024_S8192x1x1024_0_3_0)
    shapeCasts_S8192x1x1024_S8192x1024

/-! ## The cell -/

/-- The cell before its normalisation: c · σ(forget + 1) + σ(input) · tanh(candidate). -/
def rawCell (v23 : FVec F S8192x4x1024 .f32) (a2 : FVec F S8192x1024 .f32) : FVec F S8192x1024 .f32 :=
  addf (mulf a2 (sigm (addf (gate1 v23) ones))) (mulf (sigm (gate0 v23)) (Host.tanh (gate2 v23)))

/-- The mean of every cell row. -/
def meanCell (v : FVec F S8192x1024 .f32) : FVec F S8192x1 .f32 :=
  Host.divf
    (broadcastInDim S8192x1 ![0] bcast_S8192_S8192x1_0
      (Host.reduceAdd v zero0 reducesTo_S8192x1024_S8192_d1 h_S_))
    (broadcastInDim S8192x1 ![] bcast_S_S8192x1 len0)

/-- Every cell row less its mean. -/
def centCell (v : FVec F S8192x1024 .f32) : FVec F S8192x1024 .f32 :=
  subf v (broadcastInDim S8192x1024 ![0, 1] bcast_S8192x1_S8192x1024_0_1 (meanCell v))

/-- The unbiased variance of every cell row. -/
def varCell (v : FVec F S8192x1024 .f32) : FVec F S8192x1 .f32 :=
  Host.divf
    (broadcastInDim S8192x1 ![0] bcast_S8192_S8192x1_0
      (Host.reduceAdd (mulf (centCell v) (centCell v)) zero0 reducesTo_S8192x1024_S8192_d1 h_S_))
    (broadcastInDim S8192x1 ![] bcast_S_S8192x1 dof0)

/-- The deviation of every cell row. -/
def stdCell (v49 : FVec F S8192x1024 .f32) : FVec F S8192x1 .f32 :=
  Host.sqrt
    (select (broadcastInDim S8192x1 ![] bcast_S_S8192x1 (dofPos0 (F := F))) (varCell v49)
      (broadcastInDim S8192x1 ![] bcast_S_S8192x1 nan0))

/-- The normalised cell: scale times centred, over deviation plus eps, plus shift. -/
def normCell (v49 : FVec F S8192x1024 .f32) (a8 a9 : FVec F S1024 .f32) : FVec F S8192x1024 .f32 :=
  addf
    (Host.divf
      (mulf
        (broadcastInDim S8192x1024 ![0, 1] bcast_S1x1024_S8192x1024_0_1
          (broadcastInDim S1x1024 ![1] bcast_S1024_S1x1024_1 a8))
        (centCell v49))
      (broadcastInDim S8192x1024 ![0, 1] bcast_S8192x1_S8192x1024_0_1
        (addf (stdCell v49) (broadcastInDim S8192x1 ![] bcast_S_S8192x1 eps0))))
    (broadcastInDim S8192x1024 ![0, 1] bcast_S1x1024_S8192x1024_0_1
      (broadcastInDim S1x1024 ![1] bcast_S1024_S1x1024_1 a9))

/-! ## The two results -/

/-- The normalised gates as a function of the arguments. -/
def gatesOf (a0 a1 : FVec F S8192x1024 .f32) (a3 : FVec F S4096x1024 .f32) (a4 : FVec F S4096 .f32)
    (a5 : FVec F S4096x1024 .f32) (a6 a7 : FVec F S4x1024 .f32) : FVec F S8192x4x1024 .f32 :=
  normGates (preact a0 a1 a3 a4 a5) a6 a7

/-- The new cell state. -/
def refC (a0 a1 a2 : FVec F S8192x1024 .f32) (a3 : FVec F S4096x1024 .f32) (a4 : FVec F S4096 .f32)
    (a5 : FVec F S4096x1024 .f32) (a6 a7 : FVec F S4x1024 .f32) (a8 a9 : FVec F S1024 .f32) :
    FVec F S8192x1024 .f32 :=
  normCell (rawCell (gatesOf a0 a1 a3 a4 a5 a6 a7) a2) a8 a9

/-- The new hidden state. -/
def refH (a0 a1 a2 : FVec F S8192x1024 .f32) (a3 : FVec F S4096x1024 .f32) (a4 : FVec F S4096 .f32)
    (a5 : FVec F S4096x1024 .f32) (a6 a7 : FVec F S4x1024 .f32) (a8 a9 : FVec F S1024 .f32) :
    FVec F S8192x1024 .f32 :=
  mulf (Host.tanh (refC a0 a1 a2 a3 a4 a5 a6 a7 a8 a9)) (sigm (gate3 (gatesOf a0 a1 a3 a4 a5 a6 a7)))

end Cert.RefTerm

end
-- ==== Proof.RefRun.lean ====
/-
  The reference program as one straight line of array operations, and what its run leaves in the buffers.

  The program computes, from the ten argument arrays, the new hidden and cell states of a layer-normalised
  recurrent cell. Its two deviation computations are outlined functions; written out at their calls the program is
  a list of 136 operations, each reading buffers written earlier and writing one buffer of its own. Running the
  list from any memory therefore leaves every argument unchanged and each result buffer at the composition of the
  operations that lead to it: the terms `Cert.RefTerm.refH` and `Cert.RefTerm.refC` of the arguments.
-/
import proofs.«163425_j78262894067860_2_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in program order, each outlined function's body written out at its call over
    that call's own buffers: the first deviation call (its variance, the selection, the square root) after the
    integer constant 1, the second after the cell's mean. -/
abbrev ops : List (HloOp τ sig (Elt F)) :=
  [
    StableHlo.binary main_arg0 main_arg3 main_v0 ((fun l r => Host.dotGeneral dot_S8192x1024_S4096x1024_S8192x4096_1_1_0_0_n_n none l r) : (⟨S8192x1024, .f32⟩ : BufTy).Contents (Elt F) → (⟨S4096x1024, .f32⟩ : BufTy).Contents (Elt F) → (⟨S8192x4096, .f32⟩ : BufTy).Contents (Elt F)),
    StableHlo.unary main_arg4 main_v1 (broadcastInDim S1x4096 ![1] bcast_S4096_S1x4096_1 : (⟨S4096, .f32⟩ : BufTy).Contents (Elt F) → (⟨S1x4096, .f32⟩ : BufTy).Contents (Elt F)),
    StableHlo.unary main_v1 main_v2 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v0 main_v2 main_v3 (addf : (⟨S8192x4096, .f32⟩ : BufTy).Contents (Elt F) → (⟨S8192x4096, .f32⟩ : BufTy).Contents (Elt F) → (⟨S8192x4096, .f32⟩ : BufTy).Contents (Elt F)),
    StableHlo.binary main_arg1 main_arg5 main_v4 ((fun l r => Host.dotGeneral dot_S8192x1024_S4096x1024_S8192x4096_1_1_0_0_n_n none l r) : (⟨S8192x1024, .f32⟩ : BufTy).Contents (Elt F) → (⟨S4096x1024, .f32⟩ : BufTy).Contents (Elt F) → (⟨S8192x4096, .f32⟩ : BufTy).Contents (Elt F)),
    StableHlo.binary main_v3 main_v4 main_v5 (addf : (⟨S8192x4096, .f32⟩ : BufTy).Contents (Elt F) → (⟨S8192x4096, .f32⟩ : BufTy).Contents (Elt F) → (⟨S8192x4096, .f32⟩ : BufTy).Contents (Elt F)),
    StableHlo.reshape main_v5 main_v6 rfl shapeCasts_S8192x4096_S8192x4x1024,
    StableHlo.nullary main_cst (constant S_ .f32 0x00000000#32),
    StableHlo.binary main_v6 main_cst main_v7 ((fun x v => Host.reduceAdd x v reducesTo_S8192x4x1024_S8192x4_d2 h_S_) : (⟨S8192x4x1024, .f32⟩ : BufTy).Contents (Elt F) → (⟨S_, .f32⟩ : BufTy).Contents (Elt F) → (⟨S8192x4, .f32⟩ : BufTy).Contents (Elt F)),
    StableHlo.unary main_v7 main_v8 (broadcastInDim S8192x4x1 ![0, 1] bcast_S8192x4_S8192x4x1_0_1 : (⟨S8192x4, .f32⟩ : BufTy).Contents (Elt F) → (⟨S8192x4x1, .f32⟩ : BufTy).Contents (Elt F)),
    StableHlo.nullary main_cst_0 (constant S_ .f32 0x44800000#32),
    StableHlo.unary main_cst_0 main_v9 (broadcastInDim S8192x4x1 ![] bcast_S_S8192x4x1 : (⟨S_, .f32⟩ : BufTy).Contents (Elt F) → (⟨S8192x4x1, .f32⟩ : BufTy).Contents (Elt F)),
    StableHlo.binary main_v8 main_v9 main_v10 (Host.divf : (⟨S8192x4x1, .f32⟩ : BufTy).Contents (Elt F) → (⟨S8192x4x1, .f32⟩ : BufTy).Contents (Elt F) → (⟨S8192x4x1, .f32⟩ : BufTy).Contents (Elt F)),
    StableHlo.nullary main_c (constantI S_ 32 1#32),
    StableHlo.TRef.nullary main_call0.call0.cst (constant S_ .f32 0x00000000#32),
    StableHlo.TRef.binary (.of main_v6 : StableHlo.TRef sig ⟨S8192x4x1024, .f32⟩) main_call0.call0.cst main_call0.call0.v0 (fun x v => Host.reduceAdd x v reducesTo_S8192x4x1024_S8192x4_d2 h_S_),
    StableHlo.TRef.unary main_call0.call0.v0 main_call0.call0.v1 (broadcastInDim S8192x4x1 ![0, 1] bcast_S8192x4_S8192x4x1_0_1),
    StableHlo.TRef.nullary main_call0.call0.cst_0 (constant S_ .f32 0x44800000#32),
    StableHlo.TRef.unary main_call0.call0.cst_0 main_call0.call0.v2 (broadcastInDim S8192x4x1 ![] bcast_S_S8192x4x1),
    StableHlo.TRef.binary main_call0.call0.v1 main_call0.call0.v2 main_call0.call0.v3 Host.divf,
    StableHlo.TRef.unary main_call0.call0.v3 main_call0.call0.v4 (broadcastInDim S8192x4x1024 ![0, 1, 2] bcast_S8192x4x1_S8192x4x1024_0_1_2),
    StableHlo.TRef.binary (.of main_v6 : StableHlo.TRef sig ⟨S8192x4x1024, .f32⟩) main_call0.call0.v4 main_call0.call0.v5 subf,
    StableHlo.TRef.binary main_call0.call0.v5 main_call0.call0.v5 main_call0.call0.v6 mulf,
    StableHlo.TRef.unary (.of main_c : StableHlo.TRef sig ⟨S_, .i32⟩) main_call0.call0.v7 (sitofp .f32),
    StableHlo.TRef.nullary main_call0.call0.cst_1 (constant S_ .f32 0x44800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S8192x4x1024_S8192x4_d2 h_S_),
    StableHlo.TRef.unary main_call0.call0.v9 main_call0.call0.v10 (broadcastInDim S8192x4x1 ![0, 1] bcast_S8192x4_S8192x4x1_0_1),
    StableHlo.TRef.unary main_call0.call0.v8 main_call0.call0.v11 (broadcastInDim S8192x4x1 ![] bcast_S_S8192x4x1),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S8192x4x1 ![] bcast_S_S8192x4x1),
    StableHlo.TRef.ternary main_call0.call0.v13 main_call0.call0.v12 main_call0.call0.call0.v1 main_call0.call0.call0.v2 (fun p a b => select (broadcastInDim S8192x4x1 ![] bcast_S_S8192x4x1 p) a b),
    StableHlo.TRef.unary main_call0.call0.call0.v2 main_call0.v1 Host.sqrt,
    StableHlo.unary main_v10 main_v12 (broadcastInDim S8192x4x1024 ![0, 1, 2] bcast_S8192x4x1_S8192x4x1024_0_1_2 : (⟨S8192x4x1, .f32⟩ : BufTy).Contents (Elt F) → (⟨S8192x4x1024, .f32⟩ : BufTy).Contents (Elt F)),
    StableHlo.binary main_v6 main_v12 main_v13 (subf : (⟨S8192x4x1024, .f32⟩ : BufTy).Contents (Elt F) → (⟨S8192x4x1024, .f32⟩ : BufTy).Contents (Elt F) → (⟨S8192x4x1024, .f32⟩ : BufTy).Contents (Elt F)),
    StableHlo.unary main_arg6 main_v14 (broadcastInDim S1x4x1024 ![1, 2] bcast_S4x1024_S1x4x1024_1_2 : (⟨S4x1024, .f32⟩ : BufTy).Contents (Elt F) → (⟨S1x4x1024, .f32⟩ : BufTy).Contents (Elt F)),
    StableHlo.unary main_v14 main_v15 (broadcastInDim S8192x4x1024 ![0, 1, 2] bcast_S1x4x1024_S8192x4x1024_0_1_2 : (⟨S1x4x1024, .f32⟩ : BufTy).Contents (Elt F) → (⟨S8192x4x1024, .f32⟩ : BufTy).Contents (Elt F)),
    StableHlo.binary main_v15 main_v13 main_v16 (mulf : (⟨S8192x4x1024, .f32⟩ : BufTy).Contents (Elt F) → (⟨S8192x4x1024, .f32⟩ : BufTy).Contents (Elt F) → (⟨S8192x4x1024, .f32⟩ : BufTy).Contents (Elt F)),
    StableHlo.nullary main_cst_1 (constant S_ .f32 0x358637BD#32),
    StableHlo.unary main_cst_1 main_v17 (broadcastInDim S8192x4x1 ![] bcast_S_S8192x4x1 : (⟨S_, .f32⟩ : BufTy).Contents (Elt F) → (⟨S8192x4x1, .f32⟩ : BufTy).Contents (Elt F)),
    StableHlo.binary main_v11 main_v17 main_v18 (addf : (⟨S8192x4x1, .f32⟩ : BufTy).Contents (Elt F) → (⟨S8192x4x1, .f32⟩ : BufTy).Contents (Elt F) → (⟨S8192x4x1, .f32⟩ : BufTy).Contents (Elt F)),
    StableHlo.unary main_v18 main_v19 (broadcastInDim S8192x4x1024 ![0, 1, 2] bcast_S8192x4x1_S8192x4x1024_0_1_2 : (⟨S8192x4x1, .f32⟩ : BufTy).Contents (Elt F) → (⟨S8192x4x1024, .f32⟩ : BufTy).Contents (Elt F)),
    StableHlo.binary main_v16 main_v19 main_v20 (Host.divf : (⟨S8192x4x1024, .f32⟩ : BufTy).Contents (Elt F) → (⟨S8192x4x1024, .f32⟩ : BufTy).Contents (Elt F) → (⟨S8192x4x1024, .f32⟩ : BufTy).Contents (Elt F)),
    StableHlo.unary main_arg7 main_v21 (broadcastInDim S1x4x1024 ![1, 2] bcast_S4x1024_S1x4x1024_1_2 : (⟨S4x1024, .f32⟩ : BufTy).Contents (Elt F) → (⟨S1x4x1024, .f32⟩ : BufTy).Contents (Elt F)),
    StableHlo.unary main_v21 main_v22 (broadcastInDim S8192x4x1024 ![0, 1, 2] bcast_S1x4x1024_S8192x4x1024_0_1_2 : (⟨S1x4x1024, .f32⟩ : BufTy).Contents (Elt F) → (⟨S8192x4x1024, .f32⟩ : BufTy).Contents (Elt F)),
    StableHlo.binary main_v20 main_v22 main_v23 (addf : (⟨S8192x4x1024, .f32⟩ : BufTy).Contents (Elt F) → (⟨S8192x4x1024, .f32⟩ : BufTy).Contents (Elt F) → (⟨S8192x4x1024, .f32⟩ : BufTy).Contents (Elt F)),
    StableHlo.unary main_v23 main_v24 ((extractStridedSlice S8192x1x1024 ![0, 0, 0] · slices_S8192x4x1024_S8192x1x1024_0_0_0) : (⟨S8192x4x1024, .f32⟩ : BufTy).Contents (Elt F) → (⟨S8192x1x1024, .f32⟩ : BufTy).Contents (Elt F)),
    StableHlo.reshape main_v24 main_v25 rfl shapeCasts_S8192x1x1024_S8192x1024,
    StableHlo.unary main_v23 main_v26 ((extractStridedSlice S8192x1x1024 ![0, 1, 0] · slices_S8192x4x1024_S8192x1x1024_0_1_0) : (⟨S8192x4x1024, .f32⟩ : BufTy).Contents (Elt F) → (⟨S8192x1x1024, .f32⟩ : BufTy).Contents (Elt F)),
    StableHlo.reshape main_v26 main_v27 rfl shapeCasts_S8192x1x1024_S8192x1024,
    StableHlo.unary main_v23 main_v28 ((extractStridedSlice S8192x1x1024 ![0, 2, 0] · slices_S8192x4x1024_S8192x1x1024_0_2_0) : (⟨S8192x4x1024, .f32⟩ : BufTy).Contents (Elt F) → (⟨S8192x1x1024, .f32⟩ : BufTy).Contents (Elt F)),
    StableHlo.reshape main_v28 main_v29 rfl shapeCasts_S8192x1x1024_S8192x1024,
    StableHlo.unary main_v23 main_v30 ((extractStridedSlice S8192x1x1024 ![0, 3, 0] · slices_S8192x4x1024_S8192x1x1024_0_3_0) : (⟨S8192x4x1024, .f32⟩ : BufTy).Contents (Elt F) → (⟨S8192x1x1024, .f32⟩ : BufTy).Contents (Elt F)),
    StableHlo.reshape main_v30 main_v31 rfl shapeCasts_S8192x1x1024_S8192x1024,
    StableHlo.nullary main_cst_2 (constant S_ .f32 0x3F800000#32),
    StableHlo.unary main_cst_2 main_v32 (broadcastInDim S8192x1024 ![] bcast_S_S8192x1024 : (⟨S_, .f32⟩ : BufTy).Contents (Elt F) → (⟨S8192x1024, .f32⟩ : BufTy).Contents (Elt F)),
    StableHlo.binary main_v27 main_v32 main_v33 (addf : (⟨S8192x1024, .f32⟩ : BufTy).Contents (Elt F) → (⟨S8192x1024, .f32⟩ : BufTy).Contents (Elt F) → (⟨S8192x1024, .f32⟩ : BufTy).Contents (Elt F)),
    StableHlo.unary main_v33 main_v34 (Host.negf : (⟨S8192x1024, .f32⟩ : BufTy).Contents (Elt F) → (⟨S8192x1024, .f32⟩ : BufTy).Contents (Elt F)),
    StableHlo.unary main_v34 main_v35 (Host.exp : (⟨S8192x1024, .f32⟩ : BufTy).Contents (Elt F) → (⟨S8192x1024, .f32⟩ : BufTy).Contents (Elt F)),
    StableHlo.nullary main_cst_3 (constant S_ .f32 0x3F800000#32),
    StableHlo.unary main_cst_3 main_v36 (broadcastInDim S8192x1024 ![] bcast_S_S8192x1024 : (⟨S_, .f32⟩ : BufTy).Contents (Elt F) → (⟨S8192x1024, .f32⟩ : BufTy).Contents (Elt F)),
    StableHlo.binary main_v36 main_v35 main_v37 (addf : (⟨S8192x1024, .f32⟩ : BufTy).Contents (Elt F) → (⟨S8192x1024, .f32⟩ : BufTy).Contents (Elt F) → (⟨S8192x1024, .f32⟩ : BufTy).Contents (Elt F)),
    StableHlo.nullary main_cst_4 (constant S_ .f32 0x3F800000#32),
    StableHlo.unary main_cst_4 main_v38 (broadcastInDim S8192x1024 ![] bcast_S_S8192x1024 : (⟨S_, .f32⟩ : BufTy).Contents (Elt F) → (⟨S8192x1024, .f32⟩ : BufTy).Contents (Elt F)),
    StableHlo.binary main_v38 main_v37 main_v39 (Host.divf : (⟨S8192x1024, .f32⟩ : BufTy).Contents (Elt F) → (⟨S8192x1024, .f32⟩ : BufTy).Contents (Elt F) → (⟨S8192x1024, .f32⟩ : BufTy).Contents (Elt F)),
    StableHlo.binary main_arg2 main_v39 main_v40 (mulf : (⟨S8192x1024, .f32⟩ : BufTy).Contents (Elt F) → (⟨S8192x1024, .f32⟩ : BufTy).Contents (Elt F) → (⟨S8192x1024, .f32⟩ : BufTy).Contents (Elt F)),
    StableHlo.unary main_v25 main_v41 (Host.negf : (⟨S8192x1024, .f32⟩ : BufTy).Contents (Elt F) → (⟨S8192x1024, .f32⟩ : BufTy).Contents (Elt F)),
    StableHlo.unary main_v41 main_v42 (Host.exp : (⟨S8192x1024, .f32⟩ : BufTy).Contents (Elt F) → (⟨S8192x1024, .f32⟩ : BufTy).Contents (Elt F)),
    StableHlo.nullary main_cst_5 (constant S_ .f32 0x3F800000#32),
    StableHlo.unary main_cst_5 main_v43 (broadcastInDim S8192x1024 ![] bcast_S_S8192x1024 : (⟨S_, .f32⟩ : BufTy).Contents (Elt F) → (⟨S8192x1024, .f32⟩ : BufTy).Contents (Elt F)),
    StableHlo.binary main_v43 main_v42 main_v44 (addf : (⟨S8192x1024, .f32⟩ : BufTy).Contents (Elt F) → (⟨S8192x1024, .f32⟩ : BufTy).Contents (Elt F) → (⟨S8192x1024, .f32⟩ : BufTy).Contents (Elt F)),
    StableHlo.nullary main_cst_6 (constant S_ .f32 0x3F800000#32),
    StableHlo.unary main_cst_6 main_v45 (broadcastInDim S8192x1024 ![] bcast_S_S8192x1024 : (⟨S_, .f32⟩ : BufTy).Contents (Elt F) → (⟨S8192x1024, .f32⟩ : BufTy).Contents (Elt F)),
    StableHlo.binary main_v45 main_v44 main_v46 (Host.divf : (⟨S8192x1024, .f32⟩ : BufTy).Contents (Elt F) → (⟨S8192x1024, .f32⟩ : BufTy).Contents (Elt F) → (⟨S8192x1024, .f32⟩ : BufTy).Contents (Elt F)),
    StableHlo.unary main_v29 main_v47 (Host.tanh : (⟨S8192x1024, .f32⟩ : BufTy).Contents (Elt F) → (⟨S8192x1024, .f32⟩ : BufTy).Contents (Elt F)),
    StableHlo.binary main_v46 main_v47 main_v48 (mulf : (⟨S8192x1024, .f32⟩ : BufTy).Contents (Elt F) → (⟨S8192x1024, .f32⟩ : BufTy).Contents (Elt F) → (⟨S8192x1024, .f32⟩ : BufTy).Contents (Elt F)),
    StableHlo.binary main_v40 main_v48 main_v49 (addf : (⟨S8192x1024, .f32⟩ : BufTy).Contents (Elt F) → (⟨S8192x1024, .f32⟩ : BufTy).Contents (Elt F) → (⟨S8192x1024, .f32⟩ : BufTy).Contents (Elt F)),
    StableHlo.nullary main_cst_7 (constant S_ .f32 0x00000000#32),
    StableHlo.binary main_v49 main_cst_7 main_v50 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.unary main_v50 main_v51 (broadcastInDim S8192x1 ![0] bcast_S8192_S8192x1_0 : (⟨S8192, .f32⟩ : BufTy).Contents (Elt F) → (⟨S8192x1, .f32⟩ : BufTy).Contents (Elt F)),
    StableHlo.nullary main_cst_8 (constant S_ .f32 0x44800000#32),
    StableHlo.unary main_cst_8 main_v52 (broadcastInDim S8192x1 ![] bcast_S_S8192x1 : (⟨S_, .f32⟩ : BufTy).Contents (Elt F) → (⟨S8192x1, .f32⟩ : BufTy).Contents (Elt F)),
    StableHlo.binary main_v51 main_v52 main_v53 (Host.divf : (⟨S8192x1, .f32⟩ : BufTy).Contents (Elt F) → (⟨S8192x1, .f32⟩ : BufTy).Contents (Elt F) → (⟨S8192x1, .f32⟩ : BufTy).Contents (Elt F)),
    StableHlo.nullary main_c_9 (constantI S_ 32 1#32),
    StableHlo.TRef.nullary main_call1.call0.cst (constant S_ .f32 0x00000000#32),
    StableHlo.TRef.binary (.of main_v49 : StableHlo.TRef sig ⟨S8192x1024, .f32⟩) main_call1.call0.cst main_call1.call0.v0 (fun x v => Host.reduceAdd x v reducesTo_S8192x1024_S8192_d1 h_S_),
    StableHlo.TRef.unary main_call1.call0.v0 main_call1.call0.v1 (broadcastInDim S8192x1 ![0] bcast_S8192_S8192x1_0),
    StableHlo.TRef.nullary main_call1.call0.cst_0 (constant S_ .f32 0x44800000#32),
    StableHlo.TRef.unary main_call1.call0.cst_0 main_call1.call0.v2 (broadcastInDim S8192x1 ![] bcast_S_S8192x1),
    StableHlo.TRef.binary main_call1.call0.v1 main_call1.call0.v2 main_call1.call0.v3 Host.divf,
    StableHlo.TRef.unary main_call1.call0.v3 main_call1.call0.v4 (broadcastInDim S8192x1024 ![0, 1] bcast_S8192x1_S8192x1024_0_1),
    StableHlo.TRef.binary (.of main_v49 : StableHlo.TRef sig ⟨S8192x1024, .f32⟩) main_call1.call0.v4 main_call1.call0.v5 subf,
    StableHlo.TRef.binary main_call1.call0.v5 main_call1.call0.v5 main_call1.call0.v6 mulf,
    StableHlo.TRef.unary (.of main_c_9 : StableHlo.TRef sig ⟨S_, .i32⟩) main_call1.call0.v7 (sitofp .f32),
    StableHlo.TRef.nullary main_call1.call0.cst_1 (constant S_ .f32 0x44800000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S8192x1024_S8192_d1 h_S_),
    StableHlo.TRef.unary main_call1.call0.v9 main_call1.call0.v10 (broadcastInDim S8192x1 ![0] bcast_S8192_S8192x1_0),
    StableHlo.TRef.unary main_call1.call0.v8 main_call1.call0.v11 (broadcastInDim S8192x1 ![] bcast_S_S8192x1),
    StableHlo.TRef.binary main_call1.call0.v10 main_call1.call0.v11 main_call1.call0.v12 Host.divf,
    StableHlo.TRef.nullary main_call1.call0.cst_3 (constant S_ .f32 0x00000000#32),
    StableHlo.TRef.binary main_call1.call0.v8 main_call1.call0.cst_3 main_call1.call0.v13 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S8192x1 ![] bcast_S_S8192x1),
    StableHlo.TRef.ternary main_call1.call0.v13 main_call1.call0.v12 main_call1.call0.call0.v1 main_call1.call0.call0.v2 (fun p a b => select (broadcastInDim S8192x1 ![] bcast_S_S8192x1 p) a b),
    StableHlo.TRef.unary main_call1.call0.call0.v2 main_call1.v1 Host.sqrt,
    StableHlo.unary main_v53 main_v55 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v49 main_v55 main_v56 (subf : (⟨S8192x1024, .f32⟩ : BufTy).Contents (Elt F) → (⟨S8192x1024, .f32⟩ : BufTy).Contents (Elt F) → (⟨S8192x1024, .f32⟩ : BufTy).Contents (Elt F)),
    StableHlo.unary main_arg8 main_v57 (broadcastInDim S1x1024 ![1] bcast_S1024_S1x1024_1 : (⟨S1024, .f32⟩ : BufTy).Contents (Elt F) → (⟨S1x1024, .f32⟩ : BufTy).Contents (Elt F)),
    StableHlo.unary main_v57 main_v58 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v58 main_v56 main_v59 (mulf : (⟨S8192x1024, .f32⟩ : BufTy).Contents (Elt F) → (⟨S8192x1024, .f32⟩ : BufTy).Contents (Elt F) → (⟨S8192x1024, .f32⟩ : BufTy).Contents (Elt F)),
    StableHlo.nullary main_cst_10 (constant S_ .f32 0x358637BD#32),
    StableHlo.unary main_cst_10 main_v60 (broadcastInDim S8192x1 ![] bcast_S_S8192x1 : (⟨S_, .f32⟩ : BufTy).Contents (Elt F) → (⟨S8192x1, .f32⟩ : BufTy).Contents (Elt F)),
    StableHlo.binary main_v54 main_v60 main_v61 (addf : (⟨S8192x1, .f32⟩ : BufTy).Contents (Elt F) → (⟨S8192x1, .f32⟩ : BufTy).Contents (Elt F) → (⟨S8192x1, .f32⟩ : BufTy).Contents (Elt F)),
    StableHlo.unary main_v61 main_v62 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v59 main_v62 main_v63 (Host.divf : (⟨S8192x1024, .f32⟩ : BufTy).Contents (Elt F) → (⟨S8192x1024, .f32⟩ : BufTy).Contents (Elt F) → (⟨S8192x1024, .f32⟩ : BufTy).Contents (Elt F)),
    StableHlo.unary main_arg9 main_v64 (broadcastInDim S1x1024 ![1] bcast_S1024_S1x1024_1 : (⟨S1024, .f32⟩ : BufTy).Contents (Elt F) → (⟨S1x1024, .f32⟩ : BufTy).Contents (Elt F)),
    StableHlo.unary main_v64 main_v65 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v63 main_v65 main_v66 (addf : (⟨S8192x1024, .f32⟩ : BufTy).Contents (Elt F) → (⟨S8192x1024, .f32⟩ : BufTy).Contents (Elt F) → (⟨S8192x1024, .f32⟩ : BufTy).Contents (Elt F)),
    StableHlo.unary main_v66 main_v67 (Host.tanh : (⟨S8192x1024, .f32⟩ : BufTy).Contents (Elt F) → (⟨S8192x1024, .f32⟩ : BufTy).Contents (Elt F)),
    StableHlo.unary main_v31 main_v68 (Host.negf : (⟨S8192x1024, .f32⟩ : BufTy).Contents (Elt F) → (⟨S8192x1024, .f32⟩ : BufTy).Contents (Elt F)),
    StableHlo.unary main_v68 main_v69 (Host.exp : (⟨S8192x1024, .f32⟩ : BufTy).Contents (Elt F) → (⟨S8192x1024, .f32⟩ : BufTy).Contents (Elt F)),
    StableHlo.nullary main_cst_11 (constant S_ .f32 0x3F800000#32),
    StableHlo.unary main_cst_11 main_v70 (broadcastInDim S8192x1024 ![] bcast_S_S8192x1024 : (⟨S_, .f32⟩ : BufTy).Contents (Elt F) → (⟨S8192x1024, .f32⟩ : BufTy).Contents (Elt F)),
    StableHlo.binary main_v70 main_v69 main_v71 (addf : (⟨S8192x1024, .f32⟩ : BufTy).Contents (Elt F) → (⟨S8192x1024, .f32⟩ : BufTy).Contents (Elt F) → (⟨S8192x1024, .f32⟩ : BufTy).Contents (Elt F)),
    StableHlo.nullary main_cst_12 (constant S_ .f32 0x3F800000#32),
    StableHlo.unary main_cst_12 main_v72 (broadcastInDim S8192x1024 ![] bcast_S_S8192x1024 : (⟨S_, .f32⟩ : BufTy).Contents (Elt F) → (⟨S8192x1024, .f32⟩ : BufTy).Contents (Elt F)),
    StableHlo.binary main_v72 main_v71 main_v73 (Host.divf : (⟨S8192x1024, .f32⟩ : BufTy).Contents (Elt F) → (⟨S8192x1024, .f32⟩ : BufTy).Contents (Elt F) → (⟨S8192x1024, .f32⟩ : BufTy).Contents (Elt F)),
    StableHlo.binary main_v67 main_v73 main_v74 (mulf : (⟨S8192x1024, .f32⟩ : BufTy).Contents (Elt F) → (⟨S8192x1024, .f32⟩ : BufTy).Contents (Elt F) → (⟨S8192x1024, .f32⟩ : BufTy).Contents (Elt F)) ]

set_option maxRecDepth 8192 in
set_option maxHeartbeats 4000000 in
/-- The program is that straight line: the outlined functions unfolded at their calls, and sequencing
    reassociated, both sides are one chain of steps. -/
theorem main_eq (c : Dev nD) : main (F := F) c = seq ops := by
  simp only [main, main_part0, main_part1, fn_std.body, fn_var.body, fn_where.body, fn_std_0.body, fn_var_1.body,
    fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., binary_bufs_sub ..,
    reshape_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., reshape_bufs_sub .., unary_bufs_sub ..,
    reshape_bufs_sub .., unary_bufs_sub .., reshape_bufs_sub .., unary_bufs_sub .., reshape_bufs_sub .., nullary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., unary_bufs_sub ..,
    unary_bufs_sub .., nullary_bufs_sub .., unary_bufs_sub .., binary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    unary_bufs_sub .., unary_bufs_sub .., unary_bufs_sub .., nullary_bufs_sub .., unary_bufs_sub .., binary_bufs_sub ..,
    nullary_bufs_sub .., unary_bufs_sub .., binary_bufs_sub .., binary_bufs_sub ..⟩

/-! ## What the buffers hold after the line

For any contents `V` of the buffers before the line: no operation writes an argument's buffer, so each argument
is unchanged; and the two result buffers hold the composed array terms of the arguments. The fold is unrolled one
operation at a time: at the buffer an operation writes its function's value of what its operands held, elsewhere what
was there. The array operations themselves stay folded: the equation is between compositions, no array is evaluated. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

attribute [local irreducible] Host.reduceAdd shapeCast extractStridedSlice broadcastInDim Host.divf Host.sqrt Host.exp Host.negf Host.tanh select addf subf mulf constant constantI cmpf sitofp in
set_option maxRecDepth 16384 in
set_option maxHeartbeats 4000000 in
/-- The new cell state's buffer holds the normalised raw cell of the arguments. -/
theorem v66_eq (V : Valuation τ sig (Elt F)) :
    after ops V (main_v66 : DevRef τ sig) = Cert.RefTerm.refC (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

attribute [local irreducible] Host.reduceAdd shapeCast extractStridedSlice broadcastInDim Host.divf Host.sqrt Host.exp Host.negf Host.tanh select addf subf mulf constant constantI cmpf sitofp in
set_option maxRecDepth 16384 in
set_option maxHeartbeats 4000000 in
/-- The new hidden state's buffer holds tanh of the new cell state times the logistic of the output gate. -/
theorem v74_eq (V : Valuation τ sig (Elt F)) :
    after ops V (main_v74 : DevRef τ sig) = Cert.RefTerm.refH (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

/-- On every device, for any float values, from any memory with zero counters: every weakly fair execution of the
    reference terminates with the hidden state's buffer at `refH` of the arguments' launch contents, the cell
    state's at `refC` of them, and the ten arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = Cert.RefTerm.refH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v66) = Cert.RefTerm.refC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v74).trans (v74_eq _),
      (h c main_v66).trans (v66_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.RefRun

end
-- ==== Proof.RefRead.lean ====
/-
  The reference's array operations read at one index, at the shapes the reference uses, on the extended reals:
  sums over the last axis, broadcasts along new or unit axes, the two reshapes, the gate slices, the matrix
  products contracting the second axis of both operands, and the guarded variance divisor 1024 - 1.
-/
import proofs.«163425_j78262894067860_2_alg».proof.Proof.Gen.ReferenceIdeal
import proofs.«163425_j78262894067860_2_alg».proof.Proof.RowNorm
import Idealize.ShloMosaic.Lib.IdealHost
import Idealize.ShloMosaic.Lib.Pipeline.Value
import Idealize.ShloMosaic.PureOps.Ideal.Laws

noncomputable section

namespace Cert.RefCell

open Idealize.ShloMosaic Idealize.ShloMosaic.ValueIdx Cert.ReferenceIdeal Cert.Cell
open scoped BigOperators

/-! ## Sums over the last axis -/

/-- The sum over the last axis of a [8192, 4, 1024] array at (r, g): the initial value plus the 1024 entries of that row. -/
theorem reduce_r4k (v : FVec Ideal S8192x4x1024 .f32) (init : FVec Ideal S_ .f32)
    (h : S8192x4x1024.ReducesTo [2] S8192x4) (hu : 0 < S_.numel) (r : Fin 8192) (g : Fin 4) :
    Host.reduceAdd v init h hu (ix2 r g) = init ix0 + ∑ k : Fin 1024, v (ix3 r g k) := by
  have hR : S8192x4x1024.Reduces [2] S8192x4 := by decide
  rw [hostReduceAdd_apply, Ideal.hostReduceAdd_single h hR, eq_ix0 (Shape.Idx.first hu)]
  refine congrArg (init ix0 + ·) (Finset.sum_congr rfl fun k _ => congrArg v ?_)
  funext a
  match a with
  | ⟨0, _⟩ => rfl
  | ⟨1, _⟩ => rfl
  | ⟨2, _⟩ => rfl

/-- The sum over the last axis of a [8192, 1024] array at r. -/
theorem reduce_rk (v : FVec Ideal S8192x1024 .f32) (init : FVec Ideal S_ .f32)
    (h : S8192x1024.ReducesTo [1] S8192) (hu : 0 < S_.numel) (r : Fin 8192) :
    Host.reduceAdd v init h hu (ix1 r) = init ix0 + ∑ k : Fin 1024, v (ix2 r k) := by
  have hR : S8192x1024.Reduces [1] S8192 := by decide
  rw [hostReduceAdd_apply, Ideal.hostReduceAdd_single h hR, eq_ix0 (Shape.Idx.first hu)]
  refine congrArg (init ix0 + ·) (Finset.sum_congr rfl fun k _ => congrArg v ?_)
  funext a
  match a with
  | ⟨0, _⟩ => rfl
  | ⟨1, _⟩ => rfl

/-! ## Broadcasts -/

section Layout
variable {α : Type}

/-- A [8192, 4] array given a unit last axis. -/
theorem bcast_r4_r41 (x : S8192x4.Idx → α) (h : S8192x4.BroadcastsInDim S8192x4x1 ![0, 1]) (r : Fin 8192) (g : Fin 4) (z : Fin 1) :
    broadcastInDim S8192x4x1 ![0, 1] h x (ix3 r g z) = x (ix2 r g) :=
  broadcastInDim_apply _ h x _ _ fun a => by
    match a with
    | ⟨0, _⟩ => rfl
    | ⟨1, _⟩ => rfl

/-- A [8192, 4, 1] array repeated along its unit axis. -/
theorem bcast_r41_r4k (x : S8192x4x1.Idx → α) (h : S8192x4x1.BroadcastsInDim S8192x4x1024 ![0, 1, 2]) (r : Fin 8192) (g : Fin 4)
    (j : Fin 1024) : broadcastInDim S8192x4x1024 ![0, 1, 2] h x (ix3 r g j) = x (ix3 r g (0 : Fin 1)) :=
  broadcastInDim_apply _ h x _ _ fun a => by
    match a with
    | ⟨0, _⟩ => rfl
    | ⟨1, _⟩ => rfl
    | ⟨2, _⟩ => rfl

/-- A [4, 1024] array given a unit leading axis. -/
theorem bcast_4k_14k (x : S4x1024.Idx → α) (h : S4x1024.BroadcastsInDim S1x4x1024 ![1, 2]) (z : Fin 1) (g : Fin 4) (j : Fin 1024) :
    broadcastInDim S1x4x1024 ![1, 2] h x (ix3 z g j) = x (ix2 g j) :=
  broadcastInDim_apply _ h x _ _ fun a => by
    match a with
    | ⟨0, _⟩ => rfl
    | ⟨1, _⟩ => rfl

/-- A [1, 4, 1024] array repeated along its unit axis. -/
theorem bcast_14k_r4k (x : S1x4x1024.Idx → α) (h : S1x4x1024.BroadcastsInDim S8192x4x1024 ![0, 1, 2]) (r : Fin 8192) (g : Fin 4)
    (j : Fin 1024) : broadcastInDim S8192x4x1024 ![0, 1, 2] h x (ix3 r g j) = x (ix3 (0 : Fin 1) g j) :=
  broadcastInDim_apply _ h x _ _ fun a => by
    match a with
    | ⟨0, _⟩ => rfl
    | ⟨1, _⟩ => rfl
    | ⟨2, _⟩ => rfl

/-- A vector of 4096 entries given a unit leading axis. -/
theorem bcast_q_1q (x : S4096.Idx → α) (h : S4096.BroadcastsInDim S1x4096 ![1]) (z : Fin 1) (q : Fin 4096) :
    broadcastInDim S1x4096 ![1] h x (ix2 z q) = x (ix1 q) :=
  broadcastInDim_apply _ h x _ _ fun a => by
    match a with
    | ⟨0, _⟩ => rfl

/-- A [1, 4096] array repeated along its unit axis. -/
theorem bcast_1q_rq (x : S1x4096.Idx → α) (h : S1x4096.BroadcastsInDim S8192x4096 ![0, 1]) (r : Fin 8192) (q : Fin 4096) :
    broadcastInDim S8192x4096 ![0, 1] h x (ix2 r q) = x (ix2 (0 : Fin 1) q) :=
  broadcastInDim_apply _ h x _ _ fun a => by
    match a with
    | ⟨0, _⟩ => rfl
    | ⟨1, _⟩ => rfl

/-- A vector of 8192 entries given a unit last axis. -/
theorem bcast_r_r1 (x : S8192.Idx → α) (h : S8192.BroadcastsInDim S8192x1 ![0]) (r : Fin 8192) (z : Fin 1) :
    broadcastInDim S8192x1 ![0] h x (ix2 r z) = x (ix1 r) :=
  broadcastInDim_apply _ h x _ _ fun a => by
    match a with
    | ⟨0, _⟩ => rfl

/-- A [8192, 1] array repeated along its unit axis. -/
theorem bcast_r1_rk (x : S8192x1.Idx → α) (h : S8192x1.BroadcastsInDim S8192x1024 ![0, 1]) (r : Fin 8192) (j : Fin 1024) :
    broadcastInDim S8192x1024 ![0, 1] h x (ix2 r j) = x (ix2 r (0 : Fin 1)) :=
  broadcastInDim_apply _ h x _ _ fun a => by
    match a with
    | ⟨0, _⟩ => rfl
    | ⟨1, _⟩ => rfl

/-- A vector of 1024 entries given a unit leading axis. -/
theorem bcast_k_1k (x : S1024.Idx → α) (h : S1024.BroadcastsInDim S1x1024 ![1]) (z : Fin 1) (j : Fin 1024) :
    broadcastInDim S1x1024 ![1] h x (ix2 z j) = x (ix1 j) :=
  broadcastInDim_apply _ h x _ _ fun a => by
    match a with
    | ⟨0, _⟩ => rfl

/-- A [1, 1024] array repeated along its unit axis. -/
theorem bcast_1k_rk (x : S1x1024.Idx → α) (h : S1x1024.BroadcastsInDim S8192x1024 ![0, 1]) (r : Fin 8192) (j : Fin 1024) :
    broadcastInDim S8192x1024 ![0, 1] h x (ix2 r j) = x (ix2 (0 : Fin 1) j) :=
  broadcastInDim_apply _ h x _ _ fun a => by
    match a with
    | ⟨0, _⟩ => rfl
    | ⟨1, _⟩ => rfl

/-! ## Reshapes and slices -/

/-- The [8192, 4096] array seen as [8192, 4, 1024]: entry (r, g, j) is the entry of row r at column g * 1024 + j. -/
theorem reshape_rq_r4k (x : S8192x4096.Idx → α) (h : S8192x4096.ShapeCasts S8192x4x1024) (r : Fin 8192) (g : Fin 4) (j : Fin 1024) :
    shapeCast S8192x4x1024 x h (ix3 r g j) = x (ix2 r (gateCol g j)) :=
  shapeCast_apply x h _ _ (by
    rw [Shape.rowMajor_val_two, Shape.rowMajor_val_three]
    show r.val * 4096 + (g.val * 1024 + j.val) = (r.val * 4 + g.val) * 1024 + j.val
    omega)

/-- The [8192, 1, 1024] array with its unit axis dropped. -/
theorem reshape_r1k_rk (x : S8192x1x1024.Idx → α) (h : S8192x1x1024.ShapeCasts S8192x1024) (r : Fin 8192) (j : Fin 1024) :
    shapeCast S8192x1024 x h (ix2 r j) = x (ix3 r (0 : Fin 1) j) :=
  shapeCast_apply x h _ _ (by
    rw [Shape.rowMajor_val_two, Shape.rowMajor_val_three]
    show (r.val * 1 + 0) * 1024 + j.val = r.val * 1024 + j.val
    omega)

/-- The slice of gate `g` out of the [8192, 4, 1024] array. -/
theorem slice_gate (x : S8192x4x1024.Idx → α) (g : Fin 4) (h : S8192x4x1024.Slices ![0, g.val, 0] S8192x1x1024) (r : Fin 8192)
    (z : Fin 1) (j : Fin 1024) : extractStridedSlice S8192x1x1024 ![0, g.val, 0] x h (ix3 r z j) = x (ix3 r g j) :=
  extractStridedSlice_apply _ x h _ _ fun a => by
    match a with
    | ⟨0, _⟩ => show r.val = 0 + r.val; omega
    | ⟨1, _⟩ => show g.val = g.val + z.val; omega
    | ⟨2, _⟩ => show j.val = 0 + j.val; omega

end Layout

/-! ## The matrix product contracting the second axis of both operands -/

/-- Entry (r, q) of the product of a [8192, 1024] array with the transpose of a [4096, 1024] array: the sum over the
    1024 shared columns of the products of the entries. -/
theorem dot_apply [Facts₀] (l : FVec Ideal S8192x1024 .f32) (w : FVec Ideal S4096x1024 .f32) (r : Fin 8192) (q : Fin 4096) :
    Host.dotGeneral dot_S8192x1024_S4096x1024_S8192x4096_1_1_0_0_n_n none l w (ix2 r q)
      = ∑ k : Fin 1024, l (ix2 r k) * w (ix2 q k) := by
  show FloatOps.dotGeneral _ none _ l w (ix2 r q) = _
  rw [Ideal.dotGeneral_apply,
    ← Equiv.sum_comp (contrEquiv1 dot_S8192x1024_S4096x1024_S8192x4096_1_1_0_0_n_n 1024 rfl rfl).symm]
  refine Finset.sum_congr rfl fun c _ => ?_
  have c2 := contrEquiv1_symm_val dot_S8192x1024_S4096x1024_S8192x4096_1_1_0_0_n_n 1024 rfl rfl c
  have l2 : dot_S8192x1024_S4096x1024_S8192x4096_1_1_0_0_n_n.lhsIdx (ix2 r q) ((contrEquiv1 _ 1024 rfl rfl).symm c) = ix2 r c := by
    funext ax; apply Fin.ext
    match ax with
    | ⟨0, _⟩ => simp [DotDims.lhsIdx, dot_S8192x1024_S4096x1024_S8192x4096_1_1_0_0_n_n]; rfl
    | ⟨1, _⟩ => simp [DotDims.lhsIdx, dot_S8192x1024_S4096x1024_S8192x4096_1_1_0_0_n_n]; exact c2
  have r2 : dot_S8192x1024_S4096x1024_S8192x4096_1_1_0_0_n_n.rhsIdx (ix2 r q) ((contrEquiv1 _ 1024 rfl rfl).symm c) = ix2 q c := by
    funext ax; apply Fin.ext
    match ax with
    | ⟨0, _⟩ => simp [DotDims.rhsIdx, dot_S8192x1024_S4096x1024_S8192x4096_1_1_0_0_n_n]; rfl
    | ⟨1, _⟩ => simp [DotDims.rhsIdx, dot_S8192x1024_S4096x1024_S8192x4096_1_1_0_0_n_n]; exact c2
  rw [l2, r2]

/-! ## The host's elementwise functions at an index -/

section Pointwise
variable {s : Shape} {φ : FTy}

/-- The host's square root at an index. -/
theorem hostSqrt_apply (x : FVec Ideal s φ) (i : s.Idx) : Host.sqrt x i = Ideal.sqrt (x i) := rfl
/-- The host's exponential at an index. -/
theorem hostExp_apply (x : FVec Ideal s φ) (i : s.Idx) : Host.exp x i = Ideal.exp (x i) := rfl
/-- The host's hyperbolic tangent at an index. -/
theorem hostTanh_apply (x : FVec Ideal s φ) (i : s.Idx) : Host.tanh x i = Ideal.tanh (x i) := rfl
/-- The host's negation at an index. -/
theorem hostNegf_apply (x : FVec Ideal s φ) (i : s.Idx) : Host.negf x i = -(x i) := rfl

end Pointwise

/-! ## The variance divisor and its guard -/

/-- 1024.0 less the integer 1 converted is 1023.0. -/
theorem divisor_eq : Ideal.ofBits .f32 0x44800000#32 - (((1#32 : BitVec 32).toInt : ℝ) : EReal) = c1023 := by
  have h1 : (1#32 : BitVec 32).toInt = 1 := by decide
  have e : Ideal.ofBits .f32 0x44800000#32 = ((1024 : ℝ) : EReal) := c1024_eq
  rw [e, h1, c1023_eq, ← EReal.coe_sub]
  norm_num

/-- 1023.0 is above 0.0: the guard's bit is set. -/
theorem guard_eq : Ideal.cmp .ogt c1023 (Ideal.ofBits .f32 0x00000000#32) = 1#1 := by
  have h : (0 : EReal) < ((1023 : ℝ) : EReal) := by exact_mod_cast (by norm_num : (0 : ℝ) < 1023)
  rw [Ideal.ofBits_zero_f32, c1023_eq]
  show BitVec.ofBool (decide ((0 : EReal) < ((1023 : ℝ) : EReal))) = 1#1
  rw [decide_eq_true h]
  rfl

end Cert.RefCell

end
-- ==== Proof.RefCell.lean ====
/-
  The reference's two results are the cell of the specification, index by index, on the extended reals.

  The pieces follow the specification: the pre-activation (the reference adds the bias between the two products, the
  specification after them), the normalisation of a row of 1024 entries (once for the rows of the four gates, once for
  the rows of the cell; the reference's divisor 1024 - 1 is 1023 and its guard's bit is set, so the select takes the
  variance), the four gates, the cell before its normalisation (the reference spells the logistic function as
  1 / (1 + exp (-t))), and the two results.
-/
import proofs.«163425_j78262894067860_2_alg».proof.Proof.RefRead
import proofs.«163425_j78262894067860_2_alg».proof.Proof.RefTerm

noncomputable section

namespace Cert.RefCell

open Idealize.ShloMosaic Idealize.ShloMosaic.ValueIdx Cert.ReferenceIdeal Cert.ReferenceIdeal.Gen Cert.Cell Cert.RefTerm
open scoped BigOperators

/-! ## The scalar constants -/

/-- The initial value of every row sum is zero. -/
theorem zero0_apply : zero0 (F := Ideal) ix0 = 0 := Ideal.ofBits_zero_f32
/-- The row length. -/
theorem len0_apply : len0 (F := Ideal) ix0 = c1024 := rfl
/-- The constant added to the deviation. -/
theorem eps0_apply : eps0 (F := Ideal) ix0 = ceps := rfl
/-- The variance divisor: 1024.0 less the integer 1 converted is 1023.0. -/
theorem dof0_apply : dof0 (F := Ideal) ix0 = c1023 := divisor_eq
/-- The guard "the divisor is positive" holds. -/
theorem dofPos0_apply : dofPos0 (F := Ideal) ix0 = 1#1 := by
  show Ideal.cmp .ogt (dof0 (F := Ideal) ix0) (Ideal.ofBits .f32 0x00000000#32) = 1#1
  rw [dof0_apply]
  exact guard_eq
/-- The array of ones reads 1 everywhere. -/
theorem ones_apply (i : S8192x1024.Idx) : ones (F := Ideal) i = 1 := by
  unfold ones
  rw [broadcastInDim_scalar_apply]
  exact Ideal.ofBits_one_f32

/-- The reference's 1 / (1 + exp (-t)) is the logistic function. -/
theorem sigm_apply (t : FVec Ideal S8192x1024 .f32) (i : S8192x1024.Idx) : sigm t i = Ideal.logistic (t i) := by
  unfold sigm
  rw [hostDivf_apply, addf_apply, ones_apply]
  rfl

/-! ## The pre-activation -/

/-- Entry (r, g, j) of the reference's pre-activations is the specification's pre-activation of row r at column
    g * 1024 + j: the same three terms, the bias added second instead of last. -/
theorem preact_apply (a0 a1 : FVec Ideal S8192x1024 .f32) (a3 : FVec Ideal S4096x1024 .f32) (a4 : FVec Ideal S4096 .f32)
    (a5 : FVec Ideal S4096x1024 .f32) (r : Fin 8192) (g : Fin 4) (j : Fin 1024) :
    preact a0 a1 a3 a4 a5 (ix3 r g j) = pre a0 a1 a3 a4 a5 r (gateCol g j) := by
  unfold preact
  rw [reshape_rq_r4k, addf_apply, addf_apply, dot_apply, dot_apply, bcast_1q_rq, bcast_q_1q]
  unfold pre
  exact add_right_comm _ _ _

/-! ## The normalisation of the gates' rows -/

section Gates
variable (v : FVec Ideal S8192x4x1024 .f32)

/-- The mean of row (r, g). -/
theorem meanGates_apply (r : Fin 8192) (g : Fin 4) (z : Fin 1) :
    meanGates v (ix3 r g z) = mean (fun k => v (ix3 r g k)) := by
  unfold meanGates
  rw [hostDivf_apply, bcast_r4_r41, reduce_r4k, broadcastInDim_scalar_apply, zero0_apply, zero_add, len0_apply]
  rfl

/-- Row (r, g) less its mean. -/
theorem centGates_apply (r : Fin 8192) (g : Fin 4) (j : Fin 1024) :
    centGates v (ix3 r g j) = v (ix3 r g j) - mean (fun k => v (ix3 r g k)) := by
  unfold centGates
  rw [subf_apply, bcast_r41_r4k, meanGates_apply]

/-- The unbiased variance of row (r, g). -/
theorem varGates_apply (r : Fin 8192) (g : Fin 4) (z : Fin 1) :
    varGates v (ix3 r g z) = variance (fun k => v (ix3 r g k)) := by
  unfold varGates
  rw [hostDivf_apply, bcast_r4_r41, reduce_r4k, broadcastInDim_scalar_apply, zero0_apply, zero_add, dof0_apply]
  unfold variance
  refine congrArg (Ideal.div · c1023) (Finset.sum_congr rfl fun k _ => ?_)
  rw [mulf_apply, centGates_apply]

/-- The deviation of row (r, g): the guard holds, so the select takes the variance. -/
theorem stdGates_apply (r : Fin 8192) (g : Fin 4) (z : Fin 1) :
    stdGates v (ix3 r g z) = Ideal.sqrt (variance (fun k => v (ix3 r g k))) := by
  unfold stdGates
  rw [hostSqrt_apply, select_apply, broadcastInDim_scalar_apply, dofPos0_apply, select_one, varGates_apply]

/-- The normalised gates at (r, g, j): the normalisation of row (r, g) with row g of the scale and of the shift. -/
theorem normGates_apply (a6 a7 : FVec Ideal S4x1024 .f32) (r : Fin 8192) (g : Fin 4) (j : Fin 1024) :
    normGates v a6 a7 (ix3 r g j)
      = norm (fun k => v (ix3 r g k)) (fun j' => a6 (ix2 g j')) (fun j' => a7 (ix2 g j')) j := by
  unfold normGates
  rw [addf_apply, hostDivf_apply, mulf_apply, bcast_14k_r4k, bcast_4k_14k, centGates_apply, bcast_r41_r4k, addf_apply,
    stdGates_apply, broadcastInDim_scalar_apply, eps0_apply, bcast_14k_r4k, bcast_4k_14k]
  rfl

/-- Gate 0 at (r, j). -/
theorem gate0_apply (r : Fin 8192) (j : Fin 1024) : gate0 v (ix2 r j) = v (ix3 r 0 j) := by
  unfold gate0
  rw [reshape_r1k_rk]
  exact slice_gate v 0 _ r 0 j
/-- Gate 1 at (r, j). -/
theorem gate1_apply (r : Fin 8192) (j : Fin 1024) : gate1 v (ix2 r j) = v (ix3 r 1 j) := by
  unfold gate1
  rw [reshape_r1k_rk]
  exact slice_gate v 1 _ r 0 j
/-- Gate 2 at (r, j). -/
theorem gate2_apply (r : Fin 8192) (j : Fin 1024) : gate2 v (ix2 r j) = v (ix3 r 2 j) := by
  unfold gate2
  rw [reshape_r1k_rk]
  exact slice_gate v 2 _ r 0 j
/-- Gate 3 at (r, j). -/
theorem gate3_apply (r : Fin 8192) (j : Fin 1024) : gate3 v (ix2 r j) = v (ix3 r 3 j) := by
  unfold gate3
  rw [reshape_r1k_rk]
  exact slice_gate v 3 _ r 0 j

/-- The cell before its normalisation at (r, j), in terms of the three gates it reads. -/
theorem rawCell_apply (a2 : FVec Ideal S8192x1024 .f32) (r : Fin 8192) (j : Fin 1024) :
    rawCell v a2 (ix2 r j)
      = a2 (ix2 r j) * Ideal.logistic (v (ix3 r 1 j) + cone) + Ideal.logistic (v (ix3 r 0 j)) * Ideal.tanh (v (ix3 r 2 j)) := by
  unfold rawCell
  rw [addf_apply, mulf_apply, mulf_apply, sigm_apply, sigm_apply, addf_apply, ones_apply, gate1_apply, gate0_apply,
    hostTanh_apply, gate2_apply, cone_eq]

end Gates

/-! ## The normalisation of the cell's rows -/

section CellRows
variable (v : FVec Ideal S8192x1024 .f32)

/-- The mean of row r. -/
theorem meanCell_apply (r : Fin 8192) (z : Fin 1) : meanCell v (ix2 r z) = mean (fun k => v (ix2 r k)) := by
  unfold meanCell
  rw [hostDivf_apply, bcast_r_r1, reduce_rk, broadcastInDim_scalar_apply, zero0_apply, zero_add, len0_apply]
  rfl

/-- Row r less its mean. -/
theorem centCell_apply (r : Fin 8192) (j : Fin 1024) :
    centCell v (ix2 r j) = v (ix2 r j) - mean (fun k => v (ix2 r k)) := by
  unfold centCell
  rw [subf_apply, bcast_r1_rk, meanCell_apply]

/-- The unbiased variance of row r. -/
theorem varCell_apply (r : Fin 8192) (z : Fin 1) : varCell v (ix2 r z) = variance (fun k => v (ix2 r k)) := by
  unfold varCell
  rw [hostDivf_apply, bcast_r_r1, reduce_rk, broadcastInDim_scalar_apply, zero0_apply, zero_add, dof0_apply]
  unfold variance
  refine congrArg (Ideal.div · c1023) (Finset.sum_congr rfl fun k _ => ?_)
  rw [mulf_apply, centCell_apply]

/-- The deviation of row r. -/
theorem stdCell_apply (r : Fin 8192) (z : Fin 1) :
    stdCell v (ix2 r z) = Ideal.sqrt (variance (fun k => v (ix2 r k))) := by
  unfold stdCell
  rw [hostSqrt_apply, select_apply, broadcastInDim_scalar_apply, dofPos0_apply, select_one, varCell_apply]

/-- The normalised cell at (r, j): the normalisation of row r with the cell's scale and shift. -/
theorem normCell_apply (a8 a9 : FVec Ideal S1024 .f32) (r : Fin 8192) (j : Fin 1024) :
    normCell v a8 a9 (ix2 r j) = norm (fun k => v (ix2 r k)) (fun j' => a8 (ix1 j')) (fun j' => a9 (ix1 j')) j := by
  unfold normCell
  rw [addf_apply, hostDivf_apply, mulf_apply, bcast_1k_rk, bcast_k_1k, centCell_apply, bcast_r1_rk, addf_apply,
    stdCell_apply, broadcastInDim_scalar_apply, eps0_apply, bcast_1k_rk, bcast_k_1k]
  rfl

end CellRows

/-! ## The two results -/

section Results
variable (a0 a1 a2 : FVec Ideal S8192x1024 .f32) (a3 : FVec Ideal S4096x1024 .f32) (a4 : FVec Ideal S4096 .f32)
  (a5 : FVec Ideal S4096x1024 .f32) (a6 a7 : FVec Ideal S4x1024 .f32) (a8 a9 : FVec Ideal S1024 .f32)

/-- The reference's normalised gates are the specification's gates. -/
theorem gatesOf_apply (r : Fin 8192) (g : Fin 4) (j : Fin 1024) :
    gatesOf a0 a1 a3 a4 a5 a6 a7 (ix3 r g j) = gate a0 a1 a3 a4 a5 a6 a7 r g j := by
  have e : (fun k => preact a0 a1 a3 a4 a5 (ix3 r g k)) = fun j' => pre a0 a1 a3 a4 a5 r (gateCol g j') :=
    funext fun k => preact_apply a0 a1 a3 a4 a5 r g k
  unfold gatesOf
  rw [normGates_apply, e]
  rfl

/-- The reference's cell before its normalisation is the specification's. -/
theorem rawCell_gatesOf_apply (r : Fin 8192) (j : Fin 1024) :
    rawCell (gatesOf a0 a1 a3 a4 a5 a6 a7) a2 (ix2 r j) = raw a0 a1 a2 a3 a4 a5 a6 a7 r j := by
  rw [rawCell_apply, gatesOf_apply, gatesOf_apply, gatesOf_apply]
  rfl

/-- The reference's new cell state at (r, j). -/
theorem refC_apply (r : Fin 8192) (j : Fin 1024) :
    refC a0 a1 a2 a3 a4 a5 a6 a7 a8 a9 (ix2 r j) = newCAt a0 a1 a2 a3 a4 a5 a6 a7 a8 a9 r j := by
  have e : (fun k => rawCell (gatesOf a0 a1 a3 a4 a5 a6 a7) a2 (ix2 r k)) = fun j' => raw a0 a1 a2 a3 a4 a5 a6 a7 r j' :=
    funext fun k => rawCell_gatesOf_apply a0 a1 a2 a3 a4 a5 a6 a7 r k
  unfold refC
  rw [normCell_apply, e]
  rfl

/-- The reference's new cell state is the specification's. -/
theorem refC_eq : refC (F := Ideal) a0 a1 a2 a3 a4 a5 a6 a7 a8 a9 = newC a0 a1 a2 a3 a4 a5 a6 a7 a8 a9 := by
  funext i
  obtain ⟨r, j, rfl⟩ : ∃ (r : Fin 8192) (j : Fin 1024), i = ix2 r j := ⟨i 0, i 1, eq_ix2 i⟩
  exact refC_apply a0 a1 a2 a3 a4 a5 a6 a7 a8 a9 r j

/-- The reference's new hidden state is the specification's. -/
theorem refH_eq : refH (F := Ideal) a0 a1 a2 a3 a4 a5 a6 a7 a8 a9 = newH a0 a1 a2 a3 a4 a5 a6 a7 a8 a9 := by
  funext i
  obtain ⟨r, j, rfl⟩ : ∃ (r : Fin 8192) (j : Fin 1024), i = ix2 r j := ⟨i 0, i 1, eq_ix2 i⟩
  show refH a0 a1 a2 a3 a4 a5 a6 a7 a8 a9 (ix2 r j) = newHAt a0 a1 a2 a3 a4 a5 a6 a7 a8 a9 r j
  unfold refH
  rw [mulf_apply, hostTanh_apply, refC_apply, sigm_apply, gate3_apply, gatesOf_apply]
  rfl

end Results

end Cert.RefCell

end
-- ==== Proof.lean ====
/-
  The certificate of a fused LSTM cell with layer normalisation against its jnp reference.

  Both programs compute, for every batch row r and column j,
    newC r j = norm (raw r) gamma_c beta_c j,   newH r j = tanh (newC r j) * σ (o r j),
  where raw r j = c r j * σ (f r j + 1) + σ (i r j) * tanh (g r j), the gates i, f, g, o are the row normalisations
  of the four 1024-column groups of the pre-activation x r · w_ih + h r · w_hh + b_ih, and
    norm u g b j = g j * (u j - mean u) / (sqrt (variance u) + eps) + b j
  with the unbiased variance (the specification: RowNorm, CellRows).

  The kernel tiles the batch into 32 blocks of 256 rows; at the extended reals its narrowing of the operands to a
  shorter float format is the identity, its block products into a zero accumulator are plain sums, its lane
  reductions are row sums, and its logistic is 1 / (1 + exp (-x)); its scratch round trips read back what was
  stored (BodyBlocks), each block entry is the cell of that batch row (NormBlock, PreBlock, BlockCell), and the
  blocks tile the arrays (WholeArrays). The reference groups the pre-activation as (x · w_ih + b) + h · w_hh and
  divides the variance by 1024 - 1 computed at run time under a guard that holds; addition of extended reals is
  commutative and associative, and 1024 - 1 is 1023 (RefTerm, RefRun, RefRead, RefCell). So both end at the same two
  arrays. The idealization rewrote nothing, so the preservation conjunct is trivial; the three frames are the
  generated frame certificates and the reference's run.
-/
import proofs.«163425_j78262894067860_2_alg».proof.Defs
import proofs.«163425_j78262894067860_2_alg».proof.Proof.Gen.Kernel
import proofs.«163425_j78262894067860_2_alg».proof.Proof.Gen.Kernel.Skeleton
import proofs.«163425_j78262894067860_2_alg».proof.Proof.Gen.Kernel.Launch
import proofs.«163425_j78262894067860_2_alg».proof.Proof.Gen.Kernel.Points
import proofs.«163425_j78262894067860_2_alg».proof.Proof.Gen.Kernel.Frame
import proofs.«163425_j78262894067860_2_alg».proof.Proof.Gen.KernelIdeal
import proofs.«163425_j78262894067860_2_alg».proof.Proof.Gen.KernelIdeal.Skeleton
import proofs.«163425_j78262894067860_2_alg».proof.Proof.Gen.KernelIdeal.Launch
import proofs.«163425_j78262894067860_2_alg».proof.Proof.Gen.KernelIdeal.Points
import proofs.«163425_j78262894067860_2_alg».proof.Proof.Gen.KernelIdeal.Frame
import proofs.«163425_j78262894067860_2_alg».proof.Proof.Gen.KernelIdeal.Value
import proofs.«163425_j78262894067860_2_alg».proof.Proof.Gen.ReferenceIdeal
import proofs.«163425_j78262894067860_2_alg».proof.Proof.Gen.Pre_finite_inputs
import proofs.«163425_j78262894067860_2_alg».proof.Proof.WholeArrays
import proofs.«163425_j78262894067860_2_alg».proof.Proof.RefRun
import proofs.«163425_j78262894067860_2_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.RefRun.run (F := Ideal) m ρ)

/-- The ideal pass rewrote no operation. -/
theorem preserves : Cert.preserves_Kernel_KernelIdeal := trivial

/-- From memories agreeing on the ten arguments both idealized programs end with the new hidden state and the new
    cell state of the specification: the kernel by its blocks, the reference by its term read index by index. -/
theorem algebraic : Cert.algebraic_KernelIdeal_ReferenceIdeal := by
  intro m ρ m' ρ' _ hagree
  refine ⟨fun c => Cert.Cell.newH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Cert.Cell.newC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨(h c).1.trans ?_, (h c).2.1.trans ?_, (h c).2.2⟩)
    (Cert.RefRun.run (F := Ideal) m' ρ')
  · obtain ⟨h0, h1, h2, h3, h4, h5, h6, h7, h8, h9⟩ := hagree c
    rw [Cert.RefCell.refH_eq, h0, h1, h2, h3, h4, h5, h6, h7, h8, h9]
  · obtain ⟨h0, h1, h2, h3, h4, h5, h6, h7, h8, h9⟩ := hagree c
    rw [Cert.RefCell.refC_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
